-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S512x2048 : Shape := ⟨2, ![512, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S8192x2048 .f32) (main_arg1 : FVec F S512x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  main_v8
-- ==== Kernel.lean ====
abbrev S8192x2048 : Shape := ⟨2, ![8192, 2048]⟩
abbrev S512x2048 : Shape := ⟨2, ![512, 2048]⟩
abbrev S2048x512 : Shape := ⟨2, ![2048, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S8192x512 : Shape := ⟨2, ![8192, 512]⟩
abbrev S16x512 : Shape := ⟨2, ![16, 512]⟩
abbrev S2048x2048 : Shape := ⟨2, ![2048, 2048]⟩
abbrev S8x512 : Shape := ⟨2, ![8, 512]⟩
abbrev S2048 : Shape := ⟨1, ![2048]⟩
abbrev S2048x1 : Shape := ⟨2, ![2048, 1]⟩
abbrev S2x8192x512 : Shape := ⟨3, ![2, 8192, 512]⟩
abbrev S1024x512 : Shape := ⟨2, ![1024, 512]⟩
abbrev S2x1024x512 : Shape := ⟨3, ![2, 1024, 512]⟩
abbrev S1024 : Shape := ⟨1, ![1024]⟩
abbrev S1024x1 : Shape := ⟨2, ![1024, 1]⟩
abbrev S1x1024x512 : Shape := ⟨3, ![1, 1024, 512]⟩

abbrev nBuf : Space → Nat
  | .hbm => 12
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2048x512, .f32⟩
  | .hbm, ⟨3, _⟩ => ⟨S2048x512, .bf16⟩
  | .hbm, ⟨4, _⟩ => ⟨S512x2048, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S1x512, .f32⟩
  | .hbm, ⟨9, _⟩ => ⟨S8192x512, .f32⟩
  | .hbm, ⟨10, _⟩ => ⟨S16x512, .f32⟩
  | .hbm, ⟨11, _⟩ => ⟨S2x8192x512, .f32⟩
  | .local _ .vmem, ⟨0, _⟩ => ⟨S2048x2048, .f32⟩
  | .local _ .vmem, ⟨1, _⟩ => ⟨S2048x2048, .f32⟩
  | .local _ .vmem, ⟨2, _⟩ => ⟨S2048x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S8x512, .f32⟩
  | .local _ .vmem, ⟨7, _⟩ => ⟨S8x512, .f32⟩
  | .local _ .vmem, ⟨8, _⟩ => ⟨S1024x512, .f32⟩
  | .local _ .vmem, ⟨9, _⟩ => ⟨S1024x512, .f32⟩
  | .local _ .vmem, ⟨10, _⟩ => ⟨S16x512, .f32⟩
  | .local _ .vmem, ⟨11, _⟩ => ⟨S2x1024x512, .f32⟩
  | .local _ .vmem, ⟨12, _⟩ => ⟨S2x1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2x1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S512x2048_S2048x512_1_0 : S512x2048.Transposes [1, 0] S2048x512
  bitsLt_bf16_f32 : FTy.bits .bf16 < FTy.bits .f32
  reducesTo_S512x2048_S512_d1 : S512x2048.ReducesTo [1] S512
  h_S_ : 0 < S_.numel
  bcast_S512_S512x1_0 : S512.BroadcastsInDim S512x1 (![0] : Fin 1 → Fin S512x1.rank)
  transposes_S512x1_S1x512_1_0 : S512x1.Transposes [1, 0] S1x512
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S2048x2048_S2048 : S2048x2048.Reduces [1] S2048
  shapeCasts_S2048_S2048x1 : S2048.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  reduces_S2048x512_S2048 : S2048x512.Reduces [1] S2048
  inb_S8x512_S8x512_0_0 : ∀ a, (![0, 0] : Fin 2 → Nat) a + S8x512.size a ≤ S8x512.size a
  h_S8x512 : 0 < S8x512.numel
  inb_S8x512_S1x512_0_0 : ∀ a, (![0, 0] : Fin 2 → Nat) a + S1x512.size a ≤ S8x512.size a
  reduces_S2048x512_S512 : S2048x512.Reduces [0] S512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  reduces_S16x512_S512 : S16x512.Reduces [0] S512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  inb_S2x1024x512_S1x1024x512_0_0_0 : ∀ a, (![0, 0, 0] : Fin 3 → Nat) a + S1x1024x512.size a ≤ S2x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  inb_S2x1024x512_S1x1024x512_1_0_0 : ∀ a, (![1, 0, 0] : Fin 3 → Nat) a + S1x1024x512.size a ≤ S2x1024x512.size a
  dot_S2048x2048_S2048x512_S2048x512_1_0_0_1_n_n_wf : DotDims.WF S2048x2048 S2048x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x2048.size a
  hwx0_0 : ∀ i : grid0.Coords, EltTy.bits .f32 = 32 ∨ (Rect.block (s := S8192x2048) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x512.size a
  hwx0_3 : ∀ i : grid0.Coords, EltTy.bits .f32 = 32 ∨ (Rect.block (s := S8192x512) S2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S16x512.size a
  hwx0_4 : ∀ i : grid0.Coords, EltTy.bits .f32 = 32 ∨ (Rect.block (s := S16x512) S8x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x512.size a ≤ S16x512.size a
  hwx1_1 : ∀ i : grid1.Coords, EltTy.bits .f32 = 32 ∨ (Rect.block (s := S16x512) S16x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x1024x512.size a ≤ S2x8192x512.size a
  hwx1_2 : ∀ i : grid1.Coords, EltTy.bits .f32 = 32 ∨ (Rect.block (s := S2x8192x512) S2x1024x512.size (cc1_transform_2 i) (hinb1_2 i)).WholeWords (EltTy.packing .f32)

variable [Facts₀]

def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S2048x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S8x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6_0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S16x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2x1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S512x2048 : Shape := ⟨2, ![512, 2048]⟩
abbrev S_ : Shape := ⟨0, ![]⟩
abbrev S8192 : Shape := ⟨1, ![8192]⟩
abbrev S8192x1 : Shape := ⟨2, ![8192, 1]⟩
abbrev S512 : Shape := ⟨1, ![512]⟩
abbrev S1x512 : Shape := ⟨2, ![1, 512]⟩
abbrev S8192x512 : Shape := ⟨2, ![8192, 512]⟩
abbrev S1x8192x512 : Shape := ⟨3, ![1, 8192, 512]⟩
abbrev S2x8192x512 : Shape := ⟨3, ![2, 8192, 512]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S512x2048, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S8192x512, .i1⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S8192x512, .i1⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x512, .f32⟩
  | .hbm, ⟨54, _⟩ => ⟨S8192x512, .f32⟩
  | .hbm, ⟨55, _⟩ => ⟨S1x8192x512, .f32⟩
  | .hbm, ⟨56, _⟩ => ⟨S1x8192x512, .f32⟩
  | .hbm, ⟨57, _⟩ => ⟨S2x8192x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_cst : Ref sig .tc := ⟨.hbm, 32, rfl⟩
abbrev main_call0_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_v0 : Ref sig .tc := ⟨.hbm, 46, rfl⟩
abbrev main_call1_cst : Ref sig .tc := ⟨.hbm, 47, rfl⟩
abbrev main_call1_call0_v0 : Ref sig .tc := ⟨.hbm, 48, rfl⟩
abbrev main_call1_v1 : Ref sig .tc := ⟨.hbm, 49, rfl⟩
abbrev main_call1_cst_0 : Ref sig .tc := ⟨.hbm, 50, rfl⟩
abbrev main_call1_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  reducesTo_S512x2048_S512_d1 : S512x2048.ReducesTo [1] S512
  bcast_S512_S1x512_1 : S512.BroadcastsInDim S1x512 (![1] : Fin 1 → Fin S1x512.rank)
  bcast_S8192x1_S8192x512_0_1 : S8192x1.BroadcastsInDim S8192x512 (![0, 1] : Fin 2 → Fin S8192x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  reducesTo_S8192x512_S8192_d1 : S8192x512.ReducesTo [1] S8192
  reducesTo_S8192x512_S512_d0 : S8192x512.ReducesTo [0] S512
  bcast_S8192x512_S1x8192x512_1_2 : S8192x512.BroadcastsInDim S1x8192x512 (![1, 2] : Fin 2 → Fin S1x8192x512.rank)
  concatenates_S1x8192x512_S1x8192x512_S2x8192x512_d0 : Shape.Concatenates [S1x8192x512, S1x8192x512] S2x8192x512 0
  dot_S8192x2048_S512x2048_S8192x512_1_1_0_0_n_n_wf : DotDims.WF S8192x2048 S512x2048 S8192x512 [1] [1] [0] [0] [] []

variable [Facts₀]

def dot_S8192x2048_S512x2048_S8192x512_1_1_0_0_n_n : DotDims S8192x2048 S512x2048 S8192x512 where
  lhsContracting := [1]
  rhsContracting := [1]
  lhsNonContracting := [0]
  rhsNonContracting := [0]
  lhsBatch := []
  rhsBatch := []
  wf := dot_S8192x2048_S512x2048_S8192x512_1_1_0_0_n_n_wf

class Facts : Prop extends Facts₀ where

variable [Facts]
-- ==== Proof.KRun.lean ====
/-
  The kernel program's run with its result named: from any launch memory, every weakly fair execution of the
  two-region program terminates without a fault, the two argument arrays end as launched, and the result array
  ends at the contents the second region's write-backs leave (`Gen.W3`: the fold of the host operations before the
  first region, then each region's output arrays at what its grid points flushed).
-/
import proofs.«136360_j17549236371952_2_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last segment boundary's contents, the arguments as launched. -/
theorem run_W3 : θ_run defs (onTc (τ := τ) (main (F := F))) ⟨m, fun _ => 0, ρ⟩ (fun r => ∀ c : Dev nD,
      r.2.mem ((c.tc : Thread nD τ).loc main_v7) = W3 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v7 (by decide)),
       (h c _ (mem_uc main_arg0 (by decide))).trans (W3_main_arg0 m ρ c),
       (h c _ (mem_uc main_arg1 (by decide))).trans (W3_main_arg1 m ρ c)⟩)

end Cert.KernelIdeal.KValue

end
-- ==== Proof.R0Piece.lean ====
/-
  What one run of the first kernel's body leaves in its two output staging buffers, read back as values (any float
  instance). The block of the soft assignment is written by one store covering it, so it ends at the body's payload
  of the three input blocks, in both control cases. The accumulator block of 8 rows: at the first tile of a core the
  body stores zeros over it, reads row 0 back and stores row 0 again — row 0 ends at the payload of the zero row,
  the other rows at zero; at the second tile nothing is reset — row 0 ends at the payload of the row found there,
  the other rows are kept.
-/
import proofs.«136360_j17549236371952_2_alg».proof.Proof.Gen.KernelIdeal.Frame
import Idealize.ShloMosaic.Lib.Pipeline.Value
import Idealize.ShloMosaic.Lib.Tactic
import Idealize.ShloMosaic.Lib.WritesUnit
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.R0

open Cert.KernelIdeal Cert.KernelIdeal.Gen

variable {F : FTy → Type} [FloatOps F]

open Idealize.ShloMosaic.ValueIdx

theorem hz2 : (![0, 0] : Fin 2 → Nat) = fun _ => 0 := funext fun a => by fin_cases a <;> rfl

/-- Row 0 of the accumulator block, as a rectangle of the block. -/
abbrev row0 : Rect S8x512 := Rect.unit (s := S8x512) ![0, 0] S1x512.size inb_S8x512_S1x512_0_0

/-- The soft-assignment block after the body, first tile of a core. -/
theorem out_A_3 (c : Dev nD) (i : grid0.Coords) (a2 : Memref sig .tc .vmem S2048x2048 .f32) (h2 : a2.IsWhole) (a3 : Memref sig .tc .vmem S2048x512 .bf16) (h3 : a3.IsWhole) (a4 : Memref sig .tc .vmem S1x512 .f32) (h4 : a4.IsWhole) (a5 : Memref sig .tc .vmem S2048x512 .f32) (h5 : a5.IsWhole) (a6 : Memref sig .tc .vmem S8x512 .f32) (h6 : a6.IsWhole) (hc : cond0_0 i)
    (x0 : Vec F S2048x2048 .f32) (x1 : Vec F S2048x512 .bf16) (x2 : Vec F S1x512 .f32) :
    out0_A_3 c i a2 h2 a3 h3 a4 h4 a5 h5 a6 h6 hc x0 x1 x2 = k0_pay1 x0 x1 x2 := by
  unfold out0_A_3
  rw [View.read_writes_eq_canon _ _ _ (cover0_A_3 c i a2 h2 a3 h3 a4 h4 a5 h5 a6 h6 hc x0 x1 x2)]
  unfold kernelRun0_A
  dsimp only
  rw [View.canon_unit_zero hz2]
  simp only [View.readAt_eq_ld, h2.read_unread, h3.read_unread, h4.read_unread, View.ld_unit_zero (S := S2048x2048) hz2,
    View.ld_unit_zero (S := S2048x512) hz2, View.ld_unit_zero (S := S1x512) hz2]

/-- The soft-assignment block after the body, second tile of a core. -/
theorem out_B_3 (c : Dev nD) (i : grid0.Coords) (a2 : Memref sig .tc .vmem S2048x2048 .f32) (h2 : a2.IsWhole) (a3 : Memref sig .tc .vmem S2048x512 .bf16) (h3 : a3.IsWhole) (a4 : Memref sig .tc .vmem S1x512 .f32) (h4 : a4.IsWhole) (a5 : Memref sig .tc .vmem S2048x512 .f32) (h5 : a5.IsWhole) (a6 : Memref sig .tc .vmem S8x512 .f32) (h6 : a6.IsWhole) (hc : ¬cond0_0 i)
    (x0 : Vec F S2048x2048 .f32) (x1 : Vec F S2048x512 .bf16) (x2 : Vec F S1x512 .f32) (xo4 : Vec F S8x512 .f32) :
    out0_B_3 c i a2 h2 a3 h3 a4 h4 a5 h5 a6 h6 hc x0 x1 x2 xo4 = k0_pay1 x0 x1 x2 := by
  unfold out0_B_3
  rw [View.read_writes_eq_canon _ _ _ (cover0_B_3 c i a2 h2 a3 h3 a4 h4 a5 h5 a6 h6 hc x0 x1 x2 xo4)]
  unfold kernelRun0_B
  dsimp only
  rw [View.canon_unit_zero hz2]
  simp only [View.readAt_eq_ld, h2.read_unread, h3.read_unread, h4.read_unread, View.ld_unit_zero (S := S2048x2048) hz2,
    View.ld_unit_zero (S := S2048x512) hz2, View.ld_unit_zero (S := S1x512) hz2]

/-- First tile: row 0 of the accumulator is the step's payload of the zero row. -/
theorem out_A_4_row0 (c : Dev nD) (i : grid0.Coords) (a2 : Memref sig .tc .vmem S2048x2048 .f32) (h2 : a2.IsWhole) (a3 : Memref sig .tc .vmem S2048x512 .bf16) (h3 : a3.IsWhole) (a4 : Memref sig .tc .vmem S1x512 .f32) (h4 : a4.IsWhole) (a5 : Memref sig .tc .vmem S2048x512 .f32) (h5 : a5.IsWhole) (a6 : Memref sig .tc .vmem S8x512 .f32) (h6 : a6.IsWhole) (hc : cond0_0 i)
    (x0 : Vec F S2048x2048 .f32) (x1 : Vec F S2048x512 .bf16) (x2 : Vec F S1x512 .f32) (k : Fin 512) :
    out0_A_4 c i a2 h2 a3 h3 a4 h4 a5 h5 a6 h6 hc x0 x1 x2 (ix2 (0 : Fin 8) k)
      = k0_pay3 x0 x1 x2 (View.ld (k0_pay2 (F := F)) row0) (ix2 (0 : Fin 1) k) := by
  unfold out0_A_4
  unfold kernelRun0_A
  dsimp only
  sl_unfold_words
  refine (View.read_writes_cons_rows_of_mem VO0_4 _ _ _ _ (ix2 (0 : Fin 8) k) (ix2 (0 : Fin 1) k) (o := 0) rfl rfl rfl).trans ?_
  simp only [View.readAt_eq_ld, h2.read_unread, h3.read_unread, h4.read_unread, View.ld_unit_zero (S := S2048x2048) hz2,
    View.ld_unit_zero (S := S2048x512) hz2, View.ld_unit_zero (S := S1x512) hz2]
  rw [View.readCov_eq_canon_ld _ _ _ (fun y => ⟨_, List.mem_singleton_self _, View.mem_set_unit_zero hz2 inb_S8x512_S8x512_0_0 y⟩),
    View.canon_unit_zero hz2]

/-- First tile: the other rows of the accumulator are the zeros just stored. -/
theorem out_A_4_rest (c : Dev nD) (i : grid0.Coords) (a2 : Memref sig .tc .vmem S2048x2048 .f32) (h2 : a2.IsWhole) (a3 : Memref sig .tc .vmem S2048x512 .bf16) (h3 : a3.IsWhole) (a4 : Memref sig .tc .vmem S1x512 .f32) (h4 : a4.IsWhole) (a5 : Memref sig .tc .vmem S2048x512 .f32) (h5 : a5.IsWhole) (a6 : Memref sig .tc .vmem S8x512 .f32) (h6 : a6.IsWhole) (hc : cond0_0 i)
    (x0 : Vec F S2048x2048 .f32) (x1 : Vec F S2048x512 .bf16) (x2 : Vec F S1x512 .f32) (r : Fin 8) (hr : r.val ≠ 0) (k : Fin 512) :
    out0_A_4 c i a2 h2 a3 h3 a4 h4 a5 h5 a6 h6 hc x0 x1 x2 (ix2 r k) = k0_pay2 (F := F) (ix2 r k) := by
  unfold out0_A_4
  unfold kernelRun0_A
  dsimp only
  sl_unfold_words
  refine (View.read_writes_cons_rows_of_not_mem VO0_4 _ _ _ _ (ix2 r k) (o := 0) (W := 1) rfl rfl (Or.inr (by show 0 + 1 ≤ r.val; omega))).trans ?_
  rw [View.read_writes_eq_canon _ _ _ (fun y => ⟨_, List.mem_singleton_self _, View.mem_set_unit_zero hz2 inb_S8x512_S8x512_0_0 y⟩),
    View.canon_unit_zero hz2]

/-- Second tile: row 0 of the accumulator is the step's payload of the row found there. -/
theorem out_B_4_row0 (c : Dev nD) (i : grid0.Coords) (a2 : Memref sig .tc .vmem S2048x2048 .f32) (h2 : a2.IsWhole) (a3 : Memref sig .tc .vmem S2048x512 .bf16) (h3 : a3.IsWhole) (a4 : Memref sig .tc .vmem S1x512 .f32) (h4 : a4.IsWhole) (a5 : Memref sig .tc .vmem S2048x512 .f32) (h5 : a5.IsWhole) (a6 : Memref sig .tc .vmem S8x512 .f32) (h6 : a6.IsWhole) (hc : ¬cond0_0 i)
    (x0 : Vec F S2048x2048 .f32) (x1 : Vec F S2048x512 .bf16) (x2 : Vec F S1x512 .f32) (xo4 : Vec F S8x512 .f32) (k : Fin 512) :
    out0_B_4 c i a2 h2 a3 h3 a4 h4 a5 h5 a6 h6 hc x0 x1 x2 xo4 (ix2 (0 : Fin 8) k)
      = k0_pay3 x0 x1 x2 (View.ld xo4 row0) (ix2 (0 : Fin 1) k) := by
  unfold out0_B_4
  unfold kernelRun0_B
  dsimp only
  sl_unfold_words
  refine (View.read_writes_cons_rows_of_mem a6.view _ _ _ _ (ix2 (0 : Fin 8) k) (ix2 (0 : Fin 1) k) (o := 0) rfl rfl rfl).trans ?_
  simp only [View.readAt_eq_ld, h2.read_unread, h3.read_unread, h4.read_unread, h6.read_unread, View.ld_unit_zero (S := S2048x2048) hz2,
    View.ld_unit_zero (S := S2048x512) hz2, View.ld_unit_zero (S := S1x512) hz2]

/-- Second tile: the other rows of the accumulator are kept. -/
theorem out_B_4_rest (c : Dev nD) (i : grid0.Coords) (a2 : Memref sig .tc .vmem S2048x2048 .f32) (h2 : a2.IsWhole) (a3 : Memref sig .tc .vmem S2048x512 .bf16) (h3 : a3.IsWhole) (a4 : Memref sig .tc .vmem S1x512 .f32) (h4 : a4.IsWhole) (a5 : Memref sig .tc .vmem S2048x512 .f32) (h5 : a5.IsWhole) (a6 : Memref sig .tc .vmem S8x512 .f32) (h6 : a6.IsWhole) (hc : ¬cond0_0 i)
    (x0 : Vec F S2048x2048 .f32) (x1 : Vec F S2048x512 .bf16) (x2 : Vec F S1x512 .f32) (xo4 : Vec F S8x512 .f32) (r : Fin 8) (hr : r.val ≠ 0) (k : Fin 512) :
    out0_B_4 c i a2 h2 a3 h3 a4 h4 a5 h5 a6 h6 hc x0 x1 x2 xo4 (ix2 r k) = xo4 (ix2 r k) := by
  unfold out0_B_4
  unfold kernelRun0_B
  dsimp only
  refine (View.read_writes_cons_rows_of_not_mem a6.view _ _ _ _ (ix2 r k) (o := 0) (W := 1) rfl rfl (Or.inr (by show 0 + 1 ≤ r.val; omega))).trans ?_
  show View.read (Elt F) a6.view (h6.unread xo4) (ix2 r k) = xo4 (ix2 r k)
  rw [h6.read_unread]

end Cert.KernelIdeal.R0
end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«136360_j17549236371952_2_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.LibColBroadcast.lean ====
/-
  A COLUMN BROADCAST ACROSS COLUMNS, READ AT AN ELEMENT.

  An array of shape [a, 1] — one number per row — broadcast to shape [a, b] holds, at (p, c), the number of row p,
  whatever the column c.
-/
import Idealize.ShloMosaic.Lib.Pipeline.Value
import Idealize.ShloMosaic.Lib.ValueIdx

noncomputable section

namespace Cert.Lib

open Idealize.ShloMosaic Idealize.ShloMosaic.ValueIdx

/-- A column of a numbers broadcast to an a-by-b array reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColCast.lean ====
/-
  A VECTOR LAID OUT AS A COLUMN, READ AT AN ELEMENT.

  An array of shape [a] recast to shape [a, 1] — one number per row — holds, at (k, 0), the vector's entry k: both
  positions are the k-th in row-major order.
-/
import Idealize.ShloMosaic.Lib.Pipeline.Value
import Idealize.ShloMosaic.Lib.ValueIdx

noncomputable section

namespace Cert.Lib

open Idealize.ShloMosaic Idealize.ShloMosaic.ValueIdx

/-- An `[a]` array cast to `[a, 1]` reads, at `(k, u)`, the operand at `k`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (k : Fin a) (u : Fin 1) :
    shapeCast ⟨2, ![a, 1]⟩ x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

end Cert.Lib

end
-- ==== Proof.LibHostRead.lean ====
/-
  HOST LAYOUT OPERATIONS OF A GRAPH PROPAGATION STEP, READ AT AN ELEMENT. Generic in the sizes.

  A propagation step's host side moves per-edge and per-node vectors into the shapes its gather, scatter and
  elementwise products want:
    row r of a [2, E] index table, sliced out as [1, E] and reshaped to [E]            (rowOfPair_apply);
    a vector [E] made a column [E, 1]                                                    (col_apply);
    that column spread along a new feature axis to [E, D]                                (spread_apply, colSpread_apply);
    a scalar spread to any shape                                                         (splat_apply);
    a vector [D] made a row [1, D] by a reshape                                          (rowOfVec_apply).
  Each lemma says which element of the source the result holds at a given element; none depends on the element type.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

variable {α : Type}

/-- A scalar spread to any shape holds the scalar everywhere. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: the column's element (e, 0) is the vector's element e. -/
theorem col_apply {E : Nat} (dims : Fin (⟨1, ![E]⟩ : Shape).rank → Fin (⟨2, ![E, 1]⟩ : Shape).rank) (hd : dims 0 = 0)
    (h : (⟨1, ![E]⟩ : Shape).BroadcastsInDim ⟨2, ![E, 1]⟩ dims) (v : (⟨1, ![E]⟩ : Shape).Idx → α) (e : Fin E) (z : Fin 1) :
    broadcastInDim ⟨2, ![E, 1]⟩ dims h v (ix2 e z) = v (ix1 e) := by
  refine broadcastInDim_apply dims h v (ix2 e z) (ix1 e) (fun a => ?_)
  match a with
  | ⟨0, _⟩ =>
    show e.val = if E = 1 then 0 else ((ix2 e z) (dims 0)).val
    rw [hd]
    split
    · rename_i h1; have := e.isLt; show e.val = 0; omega
    · rfl

/-- A column spread along a new feature axis: element (e, k) is the column's element (e, 0). -/
theorem spread_apply {E D : Nat} (dims : Fin (⟨2, ![E, 1]⟩ : Shape).rank → Fin (⟨2, ![E, D]⟩ : Shape).rank)
    (hd0 : dims 0 = 0) (hd1 : dims 1 = 1)
    (h : (⟨2, ![E, 1]⟩ : Shape).BroadcastsInDim ⟨2, ![E, D]⟩ dims) (v : (⟨2, ![E, 1]⟩ : Shape).Idx → α) (e : Fin E) (k : Fin D) :
    broadcastInDim ⟨2, ![E, D]⟩ dims h v (ix2 e k) = v (ix2 e (0 : Fin 1)) := by
  refine broadcastInDim_apply dims h v (ix2 e k) (ix2 e (0 : Fin 1)) (fun a => ?_)
  match a with
  | ⟨0, _⟩ =>
    show e.val = if E = 1 then 0 else ((ix2 e k) (dims 0)).val
    rw [hd0]
    split
    · rename_i h1; have := e.isLt; show e.val = 0; omega
    · rfl
  | ⟨1, _⟩ =>
    show (0 : Nat) = if (1 : Nat) = 1 then 0 else ((ix2 e k) (dims 1)).val
    rw [if_pos rfl]

/-- A vector made a column and spread along a feature axis: element (e, k) is the vector's element e. -/
theorem colSpread_apply {E D : Nat} (dims1 : Fin (⟨1, ![E]⟩ : Shape).rank → Fin (⟨2, ![E, 1]⟩ : Shape).rank) (hd : dims1 0 = 0)
    (h1 : (⟨1, ![E]⟩ : Shape).BroadcastsInDim ⟨2, ![E, 1]⟩ dims1)
    (dims2 : Fin (⟨2, ![E, 1]⟩ : Shape).rank → Fin (⟨2, ![E, D]⟩ : Shape).rank) (hd0 : dims2 0 = 0) (hd1 : dims2 1 = 1)
    (h2 : (⟨2, ![E, 1]⟩ : Shape).BroadcastsInDim ⟨2, ![E, D]⟩ dims2) (v : (⟨1, ![E]⟩ : Shape).Idx → α) (e : Fin E) (k : Fin D) :
    broadcastInDim ⟨2, ![E, D]⟩ dims2 h2 (broadcastInDim ⟨2, ![E, 1]⟩ dims1 h1 v) (ix2 e k) = v (ix1 e) := by
  rw [spread_apply dims2 hd0 hd1 h2, col_apply dims1 hd h1]

/-- Row r of a two-row table, sliced out and flattened: element e is the table's element (r, e). -/
theorem rowOfPair_apply {E : Nat} (r : Fin 2) (off : Fin (⟨2, ![2, E]⟩ : Shape).rank → Nat) (ho0 : off 0 = r.val) (ho1 : off 1 = 0)
    (hs : (⟨2, ![2, E]⟩ : Shape).Slices off ⟨2, ![1, E]⟩) (hc : (⟨2, ![1, E]⟩ : Shape).ShapeCasts ⟨1, ![E]⟩)
    (A : (⟨2, ![2, E]⟩ : Shape).Idx → α) (e : Fin E) :
    shapeCast ⟨1, ![E]⟩ (extractStridedSlice ⟨2, ![1, E]⟩ off A hs) hc (ix1 e) = A (ix2 r e) := by
  rw [shapeCast_apply _ hc (ix1 e) (ix2 (0 : Fin 1) e) (by
    rw [Shape.rowMajor_val_two, Shape.rowMajor_val_one]
    show 0 * E + e.val = e.val
    omega)]
  refine extractStridedSlice_apply off A hs (ix2 (0 : Fin 1) e) (ix2 r e) (fun a => ?_)
  match a with
  | ⟨0, _⟩ => show r.val = off 0 + 0; rw [ho0, Nat.add_zero]
  | ⟨1, _⟩ => show e.val = off 1 + e.val; rw [ho1]; omega

/-- A vector made a row by a reshape: the row's element (0, f) is the vector's element f. -/
theorem rowOfVec_apply {D : Nat} (hc : (⟨1, ![D]⟩ : Shape).ShapeCasts ⟨2, ![1, D]⟩) (v : (⟨1, ![D]⟩ : Shape).Idx → α)
    (z : Fin 1) (f : Fin D) : shapeCast ⟨2, ![1, D]⟩ v hc (ix2 z f) = v (ix1 f) := by
  refine shapeCast_apply v hc (ix2 z f) (ix1 f) ?_
  rw [Shape.rowMajor_val_two, Shape.rowMajor_val_one]
  show f.val = z.val * D + f.val
  have := z.isLt
  have hz : z.val = 0 := by omega
  rw [hz]; omega

end Cert.Lib

end
-- ==== Proof.LibLaneSums.lean ====
/-
  Lane sums of a matrix read at an element, on the extended reals: a `vector.multi_reduction <add>` of an M-by-N
  matrix along its columns (axis 1) is, at row r, the sum over the N entries of row r; along its rows (axis 0) it is,
  at column k, the sum over the M entries of column k. Also the square root of a vector at an element.
-/
import Idealize.ShloMosaic.PureOps.Ideal.Laws
import Idealize.ShloMosaic.Lib.ValueIdx

noncomputable section

open scoped BigOperators

namespace Cert.Lib

open Idealize.ShloMosaic Idealize.ShloMosaic.ValueIdx

variable {φ : FTy}

/-- Summing each row: at row `r`, the sum of that row's entries. -/
theorem rowSum_apply {M N : Nat} (src : FVec Ideal ⟨2, ![M, N]⟩ φ) (acc : BitVec φ.bits)
    (h : Shape.Reduces ⟨2, ![M, N]⟩ [1] ⟨1, ![M]⟩) (hφ : FKind.Formats φ) (hacc : acc = FKind.add.neutral φ hφ) (r : Fin M) :
    multiReduction .add [1] ⟨1, ![M]⟩ src acc h hφ hacc (ix1 r) = ∑ k : Fin N, src (ix2 r k) :=
  (Ideal.multiReduction_add_single src acc h hφ hacc (ix1 r)).trans
    (Finset.sum_congr rfl fun k _ => congrArg src (funext fun a => Fin.ext (by
      match a with
      | ⟨0, _⟩ => rfl
      | ⟨1, _⟩ => rfl)))

/-- Summing each column: at column `k`, the sum of that column's entries. -/
theorem colSum_apply {M N : Nat} (src : FVec Ideal ⟨2, ![M, N]⟩ φ) (acc : BitVec φ.bits)
    (h : Shape.Reduces ⟨2, ![M, N]⟩ [0] ⟨1, ![N]⟩) (hφ : FKind.Formats φ) (hacc : acc = FKind.add.neutral φ hφ) (k : Fin N) :
    multiReduction .add [0] ⟨1, ![N]⟩ src acc h hφ hacc (ix1 k) = ∑ r : Fin M, src (ix2 r k) :=
  (Ideal.multiReduction_add_single src acc h hφ hacc (ix1 k)).trans
    (Finset.sum_congr rfl fun r _ => congrArg src (funext fun a => Fin.ext (by
      match a with
      | ⟨0, _⟩ => rfl
      | ⟨1, _⟩ => rfl)))

/-- The square root of a vector, at an element. -/
theorem sqrt_apply {s : Shape} (a : FVec Ideal s φ) (i : s.Idx) : sqrt a i = Ideal.sqrt (a i) := rfl

end Cert.Lib

end
-- ==== Proof.R0Pay.lean ====
/-
  The first kernel's arithmetic at an element, on the extended reals. For a tile `x0` of 2048 rows of the batch,
  the transposed centroids `x1` and the row `x2` of their squared norms, the body forms at (r, k)
  `qk r k = 1 / (1 + √(max (‖x0_r‖² + x2_k − 2·⟨x0_r, x1_·k⟩) 0))`, divides each row by its sum — the stored block —
  and adds the block's column sums into row 0 of the accumulator.
-/
import proofs.«136360_j17549236371952_2_alg».proof.Proof.Gen.KernelIdeal.Skeleton
import proofs.«136360_j17549236371952_2_alg».proof.Proof.LibRowReads
import proofs.«136360_j17549236371952_2_alg».proof.Proof.LibColBroadcast
import proofs.«136360_j17549236371952_2_alg».proof.Proof.LibColCast
import proofs.«136360_j17549236371952_2_alg».proof.Proof.LibHostRead
import proofs.«136360_j17549236371952_2_alg».proof.Proof.LibLaneSums
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.ValueIdx

namespace Cert.KernelIdeal.R0

open Cert.KernelIdeal Cert.KernelIdeal.Gen Cert.Lib

def qk (x0 : Vec Ideal S2048x2048 .f32) (x1 : Vec Ideal S2048x512 .bf16) (x2 : Vec Ideal S1x512 .f32)
    (r : Fin 2048) (k : Fin 512) : EReal :=
  Ideal.div (Ideal.ofBits .f32 0x3F800000#32) (Ideal.ofBits .f32 0x3F800000#32 + Ideal.sqrt
    (max ((∑ h : Fin 2048, x0 (ix2 r h) * x0 (ix2 r h)) + x2 (ix2 (0 : Fin 1) k)
      - Ideal.ofBits .f32 0x40000000#32 * ∑ h : Fin 2048, x0 (ix2 r h) * x1 (ix2 h k)) (Ideal.ofBits .f32 0x00000000#32)))

/-- The body's unnormalised assignment, as the vector term the payload forms. -/
def qrawVec (x0 : Vec Ideal S2048x2048 .f32) (x1 : Vec Ideal S2048x512 .bf16) (x2 : Vec Ideal S1x512 .f32) :
    FVec Ideal S2048x512 .f32 :=
  divf (broadcast S2048x512 (Scalar.ofBits .f32 0x3F800000#32))
    (addf (broadcast S2048x512 (Scalar.ofBits .f32 0x3F800000#32))
      (sqrt (maximumf (subf (addf
          (broadcastTo S2048x512 (shapeCast S2048x1 (multiReduction .add [1] S2048 (mulf x0 x0) 0x00000000#32 reduces_S2048x2048_S2048 (.inl rfl) rfl) shapeCasts_S2048_S2048x1) broadcasts_S2048x1_S2048x512)
          (broadcastTo S2048x512 (shapeCast S1x512 x2 shapeCasts_S1x512_S1x512) broadcasts_S1x512_S2048x512))
          (mulf (broadcast S2048x512 (Scalar.ofBits .f32 0x40000000#32))
            (matmul dot_S2048x2048_S2048x512_S2048x512_1_0_0_1_n_n none (truncf .bf16 x0 bitsLt_bf16_f32)
              (shapeCast S2048x512 x1 shapeCasts_S2048x512_S2048x512 : FVec Ideal S2048x512 .bf16) (constant S2048x512 .f32 0x00000000#32))))
          (broadcast S2048x512 (Scalar.ofBits .f32 0x00000000#32)))))

theorem pay1_eq (x0 : Vec Ideal S2048x2048 .f32) (x1 : Vec Ideal S2048x512 .bf16) (x2 : Vec Ideal S1x512 .f32) :
    k0_pay1 (F := Ideal) x0 x1 x2 = divf (qrawVec x0 x1 x2)
      (broadcastTo S2048x512 (shapeCast S2048x1 (multiReduction .add [1] S2048 (qrawVec x0 x1 x2) 0x00000000#32 reduces_S2048x512_S2048 (.inl rfl) rfl) shapeCasts_S2048_S2048x1) broadcasts_S2048x1_S2048x512) := rfl

/-- The squared norm of row `r` of a tile, as the body forms it. -/
theorem zsq_apply (x0 : Vec Ideal S2048x2048 .f32) (r : Fin 2048) (k : Fin 512) :
    broadcastTo S2048x512 (shapeCast S2048x1 (multiReduction (F := Ideal) .add [1] S2048 (mulf x0 x0) 0x00000000#32 reduces_S2048x2048_S2048 (.inl rfl) rfl) shapeCasts_S2048_S2048x1) broadcasts_S2048x1_S2048x512 (ix2 r k)
      = ∑ h : Fin 2048, x0 (ix2 r h) * x0 (ix2 r h) := by
  rw [broadcastTo_a1_ab_apply, shapeCast_a_a1_apply]
  exact rowSum_apply (mulf x0 x0) _ reduces_S2048x2048_S2048 _ _ r

theorem csq_apply (x2 : Vec Ideal S1x512 .f32) (r : Fin 2048) (k : Fin 512) :
    broadcastTo S2048x512 (shapeCast S1x512 x2 shapeCasts_S1x512_S1x512) broadcasts_S1x512_S2048x512 (ix2 r k)
      = x2 (ix2 (0 : Fin 1) k) := by
  rw [shapeCast_self, broadcastTo_1b_ab_apply]

theorem cross_apply (x0 : Vec Ideal S2048x2048 .f32) (x1 : Vec Ideal S2048x512 .bf16) (r : Fin 2048) (k : Fin 512) :
    matmul dot_S2048x2048_S2048x512_S2048x512_1_0_0_1_n_n none (truncf (F := Ideal) .bf16 x0 bitsLt_bf16_f32)
      (shapeCast S2048x512 x1 shapeCasts_S2048x512_S2048x512 : FVec Ideal S2048x512 .bf16) (constant S2048x512 .f32 0x00000000#32) (ix2 r k)
      = ∑ h : Fin 2048, x0 (ix2 r h) * x1 (ix2 h k) := by
  rw [shapeCast_self]
  exact matmul_zero_at dot_S2048x2048_S2048x512_S2048x512_1_0_0_1_n_n rfl rfl rfl rfl rfl rfl none _ _ r k

theorem qrawVec_apply (x0 : Vec Ideal S2048x2048 .f32) (x1 : Vec Ideal S2048x512 .bf16) (x2 : Vec Ideal S1x512 .f32)
    (r : Fin 2048) (k : Fin 512) : qrawVec x0 x1 x2 (ix2 r k) = qk x0 x1 x2 r k := by
  unfold qrawVec qk
  simp only [divf_apply, addf_apply, subf_apply, mulf_apply, maximumf_apply, broadcast_apply, sqrt_apply]
  rw [zsq_apply, csq_apply, cross_apply]
  rfl

theorem pay1_apply (x0 : Vec Ideal S2048x2048 .f32) (x1 : Vec Ideal S2048x512 .bf16) (x2 : Vec Ideal S1x512 .f32)
    (r : Fin 2048) (k : Fin 512) :
    k0_pay1 (F := Ideal) x0 x1 x2 (ix2 r k) = Ideal.div (qk x0 x1 x2 r k) (∑ k' : Fin 512, qk x0 x1 x2 r k') := by
  rw [pay1_eq, divf_apply, broadcastTo_a1_ab_apply, shapeCast_a_a1_apply, qrawVec_apply]
  refine congrArg (Ideal.div _) ((rowSum_apply (qrawVec x0 x1 x2) _ reduces_S2048x512_S2048 _ _ r).trans ?_)
  exact Finset.sum_congr rfl fun k' _ => qrawVec_apply x0 x1 x2 r k'

/-- The accumulator row the body stores: the row it read plus the column sums of the block it just formed. -/
theorem pay3_apply (x0 : Vec Ideal S2048x2048 .f32) (x1 : Vec Ideal S2048x512 .bf16) (x2 : Vec Ideal S1x512 .f32)
    (v31 : Vec Ideal S1x512 .f32) (k : Fin 512) :
    k0_pay3 (F := Ideal) x0 x1 x2 v31 (ix2 (0 : Fin 1) k)
      = v31 (ix2 (0 : Fin 1) k) + ∑ r : Fin 2048, k0_pay1 (F := Ideal) x0 x1 x2 (ix2 r k) := by
  unfold k0_pay3
  dsimp only
  rw [addf_apply, shapeCast_self, rowOfVec_apply]
  exact congrArg (v31 (ix2 (0 : Fin 1) k) + ·) (colSum_apply (k0_pay1 (F := Ideal) x0 x1 x2) _ reduces_S2048x512_S512 _ _ k)

/-- The reset stores zeros. -/
theorem pay2_apply (y : S8x512.Idx) : k0_pay2 (F := Ideal) y = Ideal.ofBits .f32 0x00000000#32 := rfl

end Cert.KernelIdeal.R0
end
-- ==== Proof.Spec.lean ====
/-
  The mathematics both programs compute, index by index on the extended reals.

  For a batch `z` of 8192 points and 512 centroids `cn` in dimension 2048:
  * `d2 b k`   = max (‖z_b‖² + ‖cn_k‖² − 2·⟨z_b, cn_k⟩) 0, the clamped squared distance;
  * `qraw b k` = 1 / (1 + √(d2 b k)), the Student-t kernel at one degree of freedom;
  * `Q b k`    = qraw b k / ∑_k' qraw b k', the soft assignment (rows normalised);
  * `col k`    = ∑_b Q b k, the cluster frequencies;
  * `praw b k` = Q b k² / col k and `Pm b k` = praw b k / ∑_k' praw b k', the target distribution;
  * `G`        = the two matrices stacked, Q first.
  The second half of the file states the same target distribution from a matrix `Qa` and a 16-row slab `Ca` of
  partial column sums whose rows add up to the column sums (`stacked`), and the slab a two-core accumulation
  leaves (`slab`): row 8·c holds the sum of core c's two tiles of 2048 rows, every other row is zero.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev ZArr := (⟨2, ![8192, 2048]⟩ : Shape).Idx → EReal
abbrev CArr := (⟨2, ![512, 2048]⟩ : Shape).Idx → EReal
abbrev QArr := (⟨2, ![8192, 512]⟩ : Shape).Idx → EReal
abbrev SArr := (⟨2, ![16, 512]⟩ : Shape).Idx → EReal
abbrev OArr := (⟨3, ![2, 8192, 512]⟩ : Shape).Idx → EReal

/-- The clamped squared distance between point `b` and centroid `k`, by the expanded quadratic form. -/
def d2 (z : ZArr) (cn : CArr) (b : Fin 8192) (k : Fin 512) : EReal :=
  max ((∑ h : Fin 2048, z (ix2 b h) * z (ix2 b h)) + (∑ h : Fin 2048, cn (ix2 k h) * cn (ix2 k h))
        - Ideal.ofBits .f32 0x40000000#32 * ∑ h : Fin 2048, z (ix2 b h) * cn (ix2 k h)) 0

/-- The Student-t kernel at one degree of freedom: 1 / (1 + distance). -/
def qraw (z : ZArr) (cn : CArr) (b : Fin 8192) (k : Fin 512) : EReal :=
  Ideal.div (Ideal.ofBits .f32 0x3F800000#32) (Ideal.ofBits .f32 0x3F800000#32 + Ideal.sqrt (d2 z cn b k))

/-- The soft assignment: each row of `qraw` divided by its sum. -/
def Q (z : ZArr) (cn : CArr) (b : Fin 8192) (k : Fin 512) : EReal :=
  Ideal.div (qraw z cn b k) (∑ k' : Fin 512, qraw z cn b k')

/-- The soft assignment as an array. -/
def Qarr (z : ZArr) (cn : CArr) : QArr := fun j => Q z cn (j 0) (j 1)

/-- The cluster frequencies: the column sums of the soft assignment. -/
def col (z : ZArr) (cn : CArr) (k : Fin 512) : EReal := ∑ b : Fin 8192, Q z cn b k

def praw (z : ZArr) (cn : CArr) (b : Fin 8192) (k : Fin 512) : EReal :=
  Ideal.div (Q z cn b k * Q z cn b k) (col z cn k)

/-- The target distribution: squared assignments over frequencies, rows normalised. -/
def Pm (z : ZArr) (cn : CArr) (b : Fin 8192) (k : Fin 512) : EReal :=
  Ideal.div (praw z cn b k) (∑ k' : Fin 512, praw z cn b k')

/-- Both matrices stacked along a new leading axis, the soft assignment first. -/
def G (z : ZArr) (cn : CArr) : OArr := fun j => if (j 0).val = 0 then Q z cn (j 1) (j 2) else Pm z cn (j 1) (j 2)

/-! ## The same target distribution from a matrix and a slab of partial column sums -/

/-- A slab's rows added up, column by column. -/
def colOf (Ca : SArr) (k : Fin 512) : EReal := ∑ r : Fin 16, Ca (ix2 r k)

def prawOf (Qa : QArr) (Ca : SArr) (b : Fin 8192) (k : Fin 512) : EReal :=
  Ideal.div (Qa (ix2 b k) * Qa (ix2 b k)) (colOf Ca k)

def PmOf (Qa : QArr) (Ca : SArr) (b : Fin 8192) (k : Fin 512) : EReal :=
  Ideal.div (prawOf Qa Ca b k) (∑ k' : Fin 512, prawOf Qa Ca b k')

/-- The matrix itself and its target distribution, stacked. -/
def stacked (Qa : QArr) (Ca : SArr) : OArr :=
  fun j => if (j 0).val = 0 then Qa (ix2 (j 1) (j 2)) else PmOf Qa Ca (j 1) (j 2)

/-- Row `r` of tile `i` (four tiles of 2048 rows). -/
def tileRow (i : Fin 4) (r : Fin 2048) : Fin 8192 := ⟨i.val * 2048 + r.val, by have := i.isLt; have := r.isLt; omega⟩

/-- The column sums of one tile of 2048 rows. -/
def tileSum (Qa : QArr) (i : Fin 4) (k : Fin 512) : EReal := ∑ r : Fin 2048, Qa (ix2 (tileRow i r) k)

/-- What a two-core accumulation leaves: row 8·c is core c's two tiles added, the other rows are zero. -/
def slab (Qa : QArr) : SArr := fun j =>
  if (j 0).val = 0 then tileSum Qa 0 (j 1) + tileSum Qa 1 (j 1)
  else if (j 0).val = 8 then tileSum Qa 2 (j 1) + tileSum Qa 3 (j 1)
  else 0

/-- The two stacked forms read at explicit coordinates. -/
theorem G_ix3 (z : ZArr) (cn : CArr) (s : Fin 2) (b : Fin 8192) (k : Fin 512) :
    G z cn (ix3 s b k) = if s.val = 0 then Q z cn b k else Pm z cn b k := rfl

theorem stacked_ix3 (Qa : QArr) (Ca : SArr) (s : Fin 2) (b : Fin 8192) (k : Fin 512) :
    stacked Qa Ca (ix3 s b k) = if s.val = 0 then Qa (ix2 b k) else PmOf Qa Ca b k := rfl

theorem slab_ix2 (Qa : QArr) (r : Fin 16) (k : Fin 512) :
    slab Qa (ix2 r k) = if r.val = 0 then tileSum Qa 0 k + tileSum Qa 1 k
      else if r.val = 8 then tileSum Qa 2 k + tileSum Qa 3 k else 0 := rfl

end Cert.Spec

end
-- ==== Proof.R0Tile.lean ====
/-
  The first kernel's grid, as tiles: its four points are the four tiles of 2048 rows of the batch, two per core, and a
  core's accumulator row holds, after a tile, the column sums of the core's tiles so far (reset at a core's first
  tile).
-/
import proofs.«136360_j17549236371952_2_alg».proof.Proof.Gen.KernelIdeal.Launch
import proofs.«136360_j17549236371952_2_alg».proof.Proof.Spec

noncomputable section

namespace Cert.KernelIdeal.R0

open Idealize.ShloMosaic Cert.KernelIdeal Cert.Spec

/-- The grid has four points. -/
theorem lt4 (t : Fin cfg0.N) : t.val < 4 := lt_of_lt_of_eq t.isLt (show cfg0.N = 4 from Gen.N_0)

/-- A grid point as a tile number. -/
def tl (t : Fin cfg0.N) : Fin 4 := ⟨t.val, lt4 t⟩

/-- Row 0 of a core's accumulator after tile `n`: the tile's column sums at a core's first tile, added to what was
    there at its second. -/
def accRow (Qa : QArr) : (n : ℕ) → n < 4 → Fin 512 → EReal
  | 0, _ => fun k => tileSum Qa 0 k
  | n + 1, h => fun k =>
    if (n + 1) % 2 = 0 then tileSum Qa ⟨n + 1, h⟩ k else accRow Qa n (Nat.lt_of_succ_lt h) k + tileSum Qa ⟨n + 1, h⟩ k

theorem accRow_one (Qa : QArr) (h : 1 < 4) (k : Fin 512) : accRow Qa 1 h k = tileSum Qa 0 k + tileSum Qa 1 k := rfl

theorem accRow_three (Qa : QArr) (h : 3 < 4) (k : Fin 512) : accRow Qa 3 h k = tileSum Qa 2 k + tileSum Qa 3 k := rfl

end Cert.KernelIdeal.R0

end
-- ==== Proof.R0Blocks.lean ====
/-
  The first kernel's input blocks at a grid point, and its payload over them. Point `t` reads tile `t` of the batch
  (rows 2048·t + r), the whole transposed centroid table and the whole row of squared centroid norms. So, when the
  region is entered with the batch `z`, the transpose of `cn` and the squared norms of `cn`'s rows in its three
  input arrays, the block the body stores at point `t` is the soft assignment of the tile's rows, and the column sums
  it adds to the accumulator are the tile's column sums of the soft assignment.
-/
import proofs.«136360_j17549236371952_2_alg».proof.Proof.Gen.KernelIdeal.Frame
import proofs.«136360_j17549236371952_2_alg».proof.Proof.R0Pay
import proofs.«136360_j17549236371952_2_alg».proof.Proof.R0Tile
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.R0

open Cert.KernelIdeal Cert.KernelIdeal.Gen Cert.Spec

variable (V : (c : Dev nD) → (b : Ref sig .tc) → Buf (Elt Ideal) ((c : Thread nD τ).loc b)) (c : Dev nD)

/-- The input windows' block indices at a point: tile `t` of the batch; the other two arrays whole. -/
theorem idx_in0 : ∀ t : Fin cfg0.N,
    win0_0.index t 0 = t.val ∧ win0_0.index t 1 = 0 ∧ win0_1.index t 0 = 0 ∧ win0_1.index t 1 = 0
    ∧ win0_2.index t 0 = 0 ∧ win0_2.index t 1 = 0 :=
  (by decide +kernel : ∀ t : Fin grid0.N,
    win0_0.index t 0 = t.val ∧ win0_0.index t 1 = 0 ∧ win0_1.index t 0 = 0 ∧ win0_1.index t 1 = 0
    ∧ win0_2.index t 0 = 0 ∧ win0_2.index t 1 = 0)

/-- The three input blocks at a point. -/
abbrev B0 (t : Fin cfg0.N) : Vec Ideal S2048x2048 .f32 := iblk0 V c 0 t
abbrev B1 (t : Fin cfg0.N) : Vec Ideal S2048x512 .bf16 := iblk0 V c 1 t
abbrev B2 (t : Fin cfg0.N) : Vec Ideal S1x512 .f32 := iblk0 V c 2 t

/-- The batch tile at point `t`: row r is row 2048·t + r of the batch. -/
theorem B0_apply (t : Fin cfg0.N) (r : Fin 2048) (h : Fin 2048) :
    B0 V c t (ix2 r h) = (V c main_arg0 : S8192x2048.Idx → EReal) (ix2 (tileRow (tl t) r) h) := by
  unfold B0 iblk0
  rw [View.read_apply]
  show (V c main_arg0 : S8192x2048.Idx → EReal) _ = _
  refine congrArg _ (funext fun a => Fin.ext ?_)
  match a with
  | ⟨0, _⟩ => show win0_0.index t 0 * 2048 + 1 * r.val = t.val * 2048 + r.val; rw [(idx_in0 t).1]; omega
  | ⟨1, _⟩ => show win0_0.index t 1 * 2048 + 1 * h.val = h.val; rw [(idx_in0 t).2.1]; omega

/-- The transposed centroid table is read whole. -/
theorem B1_apply (t : Fin cfg0.N) (h : Fin 2048) (k : Fin 512) :
    B1 V c t (ix2 h k) = (V c main_v1 : S2048x512.Idx → EReal) (ix2 h k) := by
  unfold B1 iblk0
  rw [View.read_apply]
  show (V c main_v1 : S2048x512.Idx → EReal) _ = _
  refine congrArg _ (funext fun a => Fin.ext ?_)
  match a with
  | ⟨0, _⟩ => show win0_1.index t 0 * 2048 + 1 * h.val = h.val; rw [(idx_in0 t).2.2.1]; omega
  | ⟨1, _⟩ => show win0_1.index t 1 * 512 + 1 * k.val = k.val; rw [(idx_in0 t).2.2.2.1]; omega

/-- The row of squared centroid norms is read whole. -/
theorem B2_apply (t : Fin cfg0.N) (k : Fin 512) :
    B2 V c t (ix2 (0 : Fin 1) k) = (V c main_v5 : S1x512.Idx → EReal) (ix2 (0 : Fin 1) k) := by
  unfold B2 iblk0
  rw [View.read_apply]
  show (V c main_v5 : S1x512.Idx → EReal) _ = _
  refine congrArg _ (funext fun a => Fin.ext ?_)
  match a with
  | ⟨0, _⟩ => show win0_2.index t 0 * 1 + 1 * 0 = 0; rw [(idx_in0 t).2.2.2.2.1]
  | ⟨1, _⟩ => show win0_2.index t 1 * 512 + 1 * k.val = k.val; rw [(idx_in0 t).2.2.2.2.2]; omega

variable (z : ZArr) (cn : CArr)
  (hz : (V c main_arg0 : S8192x2048.Idx → EReal) = z)
  (h1 : ∀ (h : Fin 2048) (k : Fin 512), (V c main_v1 : S2048x512.Idx → EReal) (ix2 h k) = cn (ix2 k h))
  (h5 : ∀ k : Fin 512, (V c main_v5 : S1x512.Idx → EReal) (ix2 (0 : Fin 1) k) = ∑ h : Fin 2048, cn (ix2 k h) * cn (ix2 k h))

include hz h1 h5

/-- The Student-t kernel over the blocks at point `t` is the specification's, at the tile's row. -/
theorem qk_blocks (t : Fin cfg0.N) (r : Fin 2048) (k : Fin 512) :
    qk (B0 V c t) (B1 V c t) (B2 V c t) r k = qraw z cn (tileRow (tl t) r) k := by
  unfold qk qraw d2
  simp only [B0_apply, B1_apply, B2_apply, hz, h1, h5, Ideal.ofBits_zero_f32]

/-- The stored block at point `t` is the soft assignment of the tile's rows. -/
theorem pay1_blocks (t : Fin cfg0.N) (r : Fin 2048) (k : Fin 512) :
    k0_pay1 (F := Ideal) (B0 V c t) (B1 V c t) (B2 V c t) (ix2 r k) = Qarr z cn (ix2 (tileRow (tl t) r) k) := by
  rw [pay1_apply]
  show _ = Q z cn (tileRow (tl t) r) k
  unfold Q
  simp only [qk_blocks V c z cn hz h1 h5]

/-- The column sums the body adds at point `t` are the tile's column sums of the soft assignment. -/
theorem colT_blocks (t : Fin cfg0.N) (k : Fin 512) :
    ∑ r : Fin 2048, k0_pay1 (F := Ideal) (B0 V c t) (B1 V c t) (B2 V c t) (ix2 r k) = tileSum (Qarr z cn) (tl t) k := by
  unfold tileSum
  exact Finset.sum_congr rfl fun r _ => pay1_blocks V c z cn hz h1 h5 t r k

end Cert.KernelIdeal.R0

end
-- ==== Proof.R0Acc.lean ====
/-
  What the first kernel's two output staging buffers hold after each grid point. The soft-assignment buffer holds
  the soft assignment of the point's tile. The accumulator buffer holds zero off row 0, and on row 0 the column sums
  of the core's tiles so far: at a core's first tile the reset makes it the tile's own column sums, at its second
  tile the tile's column sums are added to what the first left (the buffer is carried over between the two).
-/
import proofs.«136360_j17549236371952_2_alg».proof.Proof.Gen.KernelIdeal.Frame
import proofs.«136360_j17549236371952_2_alg».proof.Proof.R0Piece
import proofs.«136360_j17549236371952_2_alg».proof.Proof.R0Blocks

set_option maxRecDepth 16384

noncomputable section

open Idealize.ShloMosaic Idealize.ShloMosaic.TcCoe Idealize.SL.Sem Idealize.ShloMosaic.ValueIdx

namespace Cert.KernelIdeal.R0

open Cert.KernelIdeal Cert.KernelIdeal.Gen Cert.Spec

/-- Row 0 of the accumulator block read through its rectangle. -/
theorem ld_row0 (xo : Vec Ideal S8x512 .f32) (k : Fin 512) :
    View.ld xo row0 (ix2 (0 : Fin 1) k) = xo (ix2 (0 : Fin 8) k) := by
  show xo _ = xo _
  refine congrArg xo (funext fun a => Fin.ext ?_)
  match a with
  | ⟨0, _⟩ => rfl
  | ⟨1, _⟩ => show 0 + 1 * k.val = k.val; omega

variable (V : (c : Dev nD) → (b : Ref sig .tc) → Buf (Elt Ideal) ((c : Thread nD τ).loc b)) (c : Dev nD)
variable (z : ZArr) (cn : CArr)
  (hz : (V c main_arg0 : S8192x2048.Idx → EReal) = z)
  (h1 : ∀ (h : Fin 2048) (k : Fin 512), (V c main_v1 : S2048x512.Idx → EReal) (ix2 h k) = cn (ix2 k h))
  (h5 : ∀ k : Fin 512, (V c main_v5 : S1x512.Idx → EReal) (ix2 (0 : Fin 1) k) = ∑ h : Fin 2048, cn (ix2 k h) * cn (ix2 k h))

include hz h1 h5

/-- A core's first tile: the soft-assignment buffer. -/
theorem fst_A (t : Fin cfg0.N) (h0 : t.val % 2 = 0) (r : Fin 2048) (k : Fin 512) :
    (outsAt0 V c t.val t.isLt).1 (ix2 r k) = Qarr z cn (ix2 (tileRow (tl t) r) k) := by
  rw [outsAt0_A V c t h0]
  dsimp only
  rw [out_A_3]
  exact pay1_blocks V c z cn hz h1 h5 t r k

/-- A core's second tile: the soft-assignment buffer. -/
theorem fst_B (t : Fin cfg0.N) (h0 : ¬t.val % 2 = 0) (r : Fin 2048) (k : Fin 512) :
    (outsAt0 V c t.val t.isLt).1 (ix2 r k) = Qarr z cn (ix2 (tileRow (tl t) r) k) := by
  rw [outsAt0_B V c t h0]
  dsimp only
  rw [out_B_3]
  exact pay1_blocks V c z cn hz h1 h5 t r k

/-- A core's first tile: the accumulator is the tile's column sums on row 0 and zero elsewhere. -/
theorem snd_A (t : Fin cfg0.N) (h0 : t.val % 2 = 0) (r : Fin 8) (k : Fin 512) :
    (outsAt0 V c t.val t.isLt).2 (ix2 r k) = if r.val = 0 then tileSum (Qarr z cn) (tl t) k else 0 := by
  rw [outsAt0_A V c t h0]
  dsimp only
  by_cases hr : r.val = 0
  · obtain rfl : r = 0 := Fin.ext hr
    rw [if_pos hr, out_A_4_row0, pay3_apply, colT_blocks V c z cn hz h1 h5]
    show Ideal.ofBits .f32 0x00000000#32 + _ = _
    rw [Ideal.ofBits_zero_f32, zero_add]
  · rw [if_neg hr, out_A_4_rest c (grid0.coords t) (ms0_0 t) (hs0_0 t) (ms0_1 t) (hs0_1 t) (ms0_2 t) (hs0_2 t) (ms0_3 t) (hs0_3 t) (ms0_4 t) (hs0_4 t) _ (B0 V c t) (B1 V c t) (B2 V c t) r hr k]
    exact Ideal.ofBits_zero_f32

/-- A core's second tile: row 0 gains the tile's column sums, the other rows are kept. -/
theorem snd_B (t : Fin cfg0.N) (h0 : ¬t.val % 2 = 0) (r : Fin 8) (k : Fin 512) :
    (outsAt0 V c t.val t.isLt).2 (ix2 r k)
      = if r.val = 0 then (outsAt0 V c (t.val - 1) (Nat.lt_of_le_of_lt (Nat.sub_le _ _) t.isLt)).2 (ix2 (0 : Fin 8) k) + tileSum (Qarr z cn) (tl t) k
        else (outsAt0 V c (t.val - 1) (Nat.lt_of_le_of_lt (Nat.sub_le _ _) t.isLt)).2 (ix2 r k) := by
  rw [outsAt0_B V c t h0]
  dsimp only
  by_cases hr : r.val = 0
  · obtain rfl : r = 0 := Fin.ext hr
    rw [if_pos hr, out_B_4_row0, pay3_apply, colT_blocks V c z cn hz h1 h5, ld_row0]
  · rw [if_neg hr, out_B_4_rest c (grid0.coords t) (ms0_0 t) (hs0_0 t) (ms0_1 t) (hs0_1 t) (ms0_2 t) (hs0_2 t) (ms0_3 t) (hs0_3 t) (ms0_4 t) (hs0_4 t) _ (B0 V c t) (B1 V c t) (B2 V c t) _ r hr k]

/-- After every point: the soft assignment of the point's tile, and the accumulator's closed form. -/
theorem outs_eq : ∀ (n : ℕ) (hn : n < cfg0.N),
    (∀ (r : Fin 2048) (k : Fin 512), (outsAt0 V c n hn).1 (ix2 r k) = Qarr z cn (ix2 (tileRow (tl ⟨n, hn⟩) r) k))
    ∧ (∀ (r : Fin 8) (k : Fin 512), (outsAt0 V c n hn).2 (ix2 r k)
        = if r.val = 0 then accRow (Qarr z cn) n (lt4 ⟨n, hn⟩) k else 0)
  | 0, hn => ⟨fun r k => fst_A V c z cn hz h1 h5 ⟨0, hn⟩ rfl r k, fun r k => snd_A V c z cn hz h1 h5 ⟨0, hn⟩ rfl r k⟩
  | n + 1, hn => by
    by_cases h0 : (n + 1) % 2 = 0
    · refine ⟨fun r k => fst_A V c z cn hz h1 h5 ⟨n + 1, hn⟩ h0 r k, fun r k => ?_⟩
      rw [snd_A V c z cn hz h1 h5 ⟨n + 1, hn⟩ h0 r k]
      show _ = if r.val = 0 then (if (n + 1) % 2 = 0 then tileSum (Qarr z cn) ⟨n + 1, _⟩ k else _) else 0
      rw [if_pos h0]
      rfl
    · refine ⟨fun r k => fst_B V c z cn hz h1 h5 ⟨n + 1, hn⟩ h0 r k, fun r k => ?_⟩
      have ih := (outs_eq n (Nat.lt_of_succ_lt hn)).2
      rw [snd_B V c z cn hz h1 h5 ⟨n + 1, hn⟩ h0 r k]
      show (if r.val = 0 then (outsAt0 V c n _).2 (ix2 (0 : Fin 8) k) + _ else (outsAt0 V c n _).2 (ix2 r k))
        = if r.val = 0 then (if (n + 1) % 2 = 0 then _ else accRow (Qarr z cn) n _ k + tileSum (Qarr z cn) ⟨n + 1, _⟩ k) else 0
      rw [if_neg h0, ih (0 : Fin 8) k, ih r k, if_pos (show ((0 : Fin 8)).val = 0 from rfl)]
      by_cases hr : r.val = 0
      · rw [if_pos hr, if_pos hr]; rfl
      · rw [if_neg hr, if_neg hr, if_neg hr]

end Cert.KernelIdeal.R0

end
-- ==== Proof.R0Final.lean ====
/-
  THE FIRST KERNEL'S TWO OUTPUTS, FROM BLOCKS TO THE ARRAYS.

  The first kernel walks the four tiles of 2048 rows of the batch, two per core. At tile t it writes block t of the
  soft-assignment matrix [8192, 512] — row r of the block is row t·2048 + r of the matrix — and, at a core's second
  tile, the core's block of 8 rows of the slab [16, 512] of partial column sums, whose row 0 holds the column sums of the
  core's two tiles and whose other rows are zero. Given what the body leaves in the two blocks at every tile, the four
  matrix blocks tile the matrix, so it ends holding the matrix they are blocks of; and the two slab blocks written (at
  tiles 1 and 3) tile the slab, so it ends holding row 0 = tiles 0 and 1 added, row 8 = tiles 2 and 3 added, zero
  elsewhere.
-/
import proofs.«136360_j17549236371952_2_alg».proof.Proof.Gen.KernelIdeal.Frame
import proofs.«136360_j17549236371952_2_alg».proof.Proof.R0Tile
import proofs.«136360_j17549236371952_2_alg».proof.Proof.Spec
import Idealize.ShloMosaic.Lib.Pipeline.Value
import Idealize.ShloMosaic.Lib.ValueIdx

noncomputable section

open scoped BigOperators

namespace Cert.KernelIdeal.R0

open Cert.KernelIdeal Cert.KernelIdeal.Gen Idealize.ShloMosaic Idealize.ShloMosaic.ValueIdx Idealize.ShloMosaic.TcCoe Idealize.SL.Sem
open Idealize.ShloMosaic.Pipeline (Dat)

/-- The two output index maps over the grid: the matrix moves by tiles, the slab by cores (two tiles to a core). -/
theorem idx_facts : ∀ t : Fin cfg0.N, win0_3.index t (0 : Fin 2) = t.val ∧ win0_3.index t (1 : Fin 2) = 0
    ∧ win0_4.index t (0 : Fin 2) = t.val / 2 ∧ win0_4.index t (1 : Fin 2) = 0 :=
  (by decide +kernel : ∀ t : Fin grid0.N, _)

/-- Row r of the slab block of the core that tile t belongs to, as a row of the slab. -/
def slabRow (t : Fin cfg0.N) (r : Fin 8) : Fin 16 :=
  ⟨t.val / 2 * 8 + r.val, by have := lt4 t; have := r.isLt; omega⟩

variable (V : (c : Dev nD) → (b : Ref sig .tc) → Buf (Elt Ideal) ((c : Thread nD τ).loc b)) (c : Dev nD) (Qa : Cert.Spec.QArr)

/-! ## The soft-assignment matrix -/

/-- An element (r, k) of the matrix window's block at tile t sits in the matrix at (t·2048 + r, k). -/
theorem emb3 (t : Fin cfg0.N) (r : Fin 2048) (k : Fin 512) :
    ((cfg0.win 3).blk t).view.emb (ix2 r k) = (ix2 (Cert.Spec.tileRow (tl t) r) k : S8192x512.Idx) := by
  obtain ⟨e0, e1, -⟩ := idx_facts t
  funext a
  apply Fin.ext
  match a with
  | ⟨0, _⟩ => show win0_3.index t (0 : Fin 2) * 2048 + 1 * r.val = t.val * 2048 + r.val; rw [e0]; omega
  | ⟨1, _⟩ => show win0_3.index t (1 : Fin 2) * 512 + 1 * k.val = k.val; rw [e1]; omega

/-- What tile t writes back to the matrix is block t of `Qa`, when the body leaves there the rows of tile t. -/
theorem flushed3_eq
    (hpay : ∀ (t : Fin cfg0.N) (r : Fin 2048) (k : Fin 512),
      (Gen.outsAt0 (F := Ideal) V c t.val t.isLt).1 (ix2 r k) = Qa (ix2 (Cert.Spec.tileRow (tl t) r) k))
    (t : Fin cfg0.N) :
    (dat0 (F := Ideal) V c).flushed 3 t = ((cfg0.win 3).blk t).view.read (Elt Ideal) Qa := by
  show (cfg0.win 3).cut (grid0.coords t) ((dat0 (F := Ideal) V c).after 3 t) = _
  rw [after0_3]
  funext j
  obtain ⟨r, k, rfl⟩ : ∃ (r : Fin 2048) (k : Fin 512), j = ix2 r k := ⟨j 0, j 1, eq_ix2 (n0 := 2048) (n1 := 512) j⟩
  rw [View.read_apply]
  show (Gen.outsAt0 (F := Ideal) V c t.val t.isLt).1 (ix2 r k) = Qa (((cfg0.win 3).blk t).view.emb (ix2 r k))
  rw [emb3, hpay]

/-- An index of the matrix is in tile t's block iff each coordinate is in the block's range on its axis. -/
theorem mem_blk3 (t : Fin cfg0.N) (i : S8192x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v6_0).slice (win0_3.rect t)).set ↔ _
  rw [View.set_slice_whole, Rect.mem_set_unit]
  exact Iff.rfl

/-- Every index of the matrix is in some tile's block: row b is covered by tile b / 2048. -/
theorem cover3 (i : S8192x512.Idx) :
    ∃ t : Fin cfg0.N, (cfg0.win 3).flush t = true ∧ i ∈ ((cfg0.win 3).blk t).view.set := by
  have h0 : (i 0).val < 8192 := (i 0).isLt
  have h1 : (i 1).val < 512 := (i 1).isLt
  have hN : cfg0.N = 4 := N_0
  obtain ⟨t, ht⟩ : ∃ t : Fin cfg0.N, t.val = (i 0).val / 2048 := ⟨⟨(i 0).val / 2048, by rw [hN]; omega⟩, rfl⟩
  obtain ⟨e0, e1, -⟩ := idx_facts t
  refine ⟨t, flush0_3 t, ?_⟩
  rw [mem_blk3]
  intro a
  match a with
  | ⟨0, _⟩ =>
    show win0_3.index t (0 : Fin 2) * 2048 ≤ (i 0).val ∧ (i 0).val < win0_3.index t (0 : Fin 2) * 2048 + 2048
    rw [e0, ht]; omega
  | ⟨1, _⟩ =>
    show win0_3.index t (1 : Fin 2) * 512 ≤ (i 1).val ∧ (i 1).val < win0_3.index t (1 : Fin 2) * 512 + 512
    rw [e1]; omega

/-- THE MATRIX AFTER THE REGION: `Qa`, when at every tile the body leaves the tile's rows of `Qa` in the block. -/
theorem final3
    (hpay : ∀ (t : Fin cfg0.N) (r : Fin 2048) (k : Fin 512),
      (Gen.outsAt0 (F := Ideal) V c t.val t.isLt).1 (ix2 r k) = Qa (ix2 (Cert.Spec.tileRow (tl t) r) k)) :
    (Gen.dat0 (F := Ideal) V c).arrAt 3 cfg0.N = Qa :=
  (dat0 (F := Ideal) V c).arrAt_eq_of_cover 3 Qa (fun t _ => flushed3_eq V c Qa hpay t) cover3

/-! ## The slab of partial column sums -/

/-- An element (r, k) of the slab window's block at tile t sits in the slab at ((t / 2)·8 + r, k). -/
theorem emb4 (t : Fin cfg0.N) (r : Fin 8) (k : Fin 512) :
    ((cfg0.win 4).blk t).view.emb (ix2 r k) = (ix2 (slabRow t r) k : S16x512.Idx) := by
  obtain ⟨-, -, e0, e1⟩ := idx_facts t
  funext a
  apply Fin.ext
  match a with
  | ⟨0, _⟩ => show win0_4.index t (0 : Fin 2) * 8 + 1 * r.val = t.val / 2 * 8 + r.val; rw [e0]; omega
  | ⟨1, _⟩ => show win0_4.index t (1 : Fin 2) * 512 + 1 * k.val = k.val; rw [e1]; omega

/-- A core's accumulator block after its second tile is the core's block of the slab: row 0 the two tiles' column sums
    added, the other rows zero. -/
theorem acc_slab (n : ℕ) (hn : n < 4) (hodd : n % 2 = 1) (r : Fin 8) (k : Fin 512) (R : Fin 16)
    (hR : R.val = n / 2 * 8 + r.val) :
    (if r.val = 0 then accRow Qa n hn k else 0) = Cert.Spec.slab Qa (ix2 R k) := by
  rw [Cert.Spec.slab_ix2]
  have hr8 : r.val < 8 := r.isLt
  have hn13 : n = 1 ∨ n = 3 := by omega
  rcases hn13 with rfl | rfl
  · have hR' : R.val = r.val := by omega
    by_cases hr : r.val = 0
    · rw [if_pos hr, if_pos (by omega), accRow_one]
    · rw [if_neg hr, if_neg (by omega), if_neg (by omega)]
  · have hR' : R.val = 8 + r.val := by omega
    by_cases hr : r.val = 0
    · rw [if_pos hr, if_neg (by omega), if_pos (by omega), accRow_three]
    · rw [if_neg hr, if_neg (by omega), if_neg (by omega)]

/-- What a core's second tile writes back to the slab is its block of the slab of `Qa`. -/
theorem flushed4_eq
    (hacc : ∀ (t : Fin cfg0.N) (r : Fin 8) (k : Fin 512),
      (Gen.outsAt0 (F := Ideal) V c t.val t.isLt).2 (ix2 r k) = if r.val = 0 then accRow Qa t.val (lt4 t) k else 0)
    (t : Fin cfg0.N) (hf : (cfg0.win 4).flush t = true) :
    (dat0 (F := Ideal) V c).flushed 4 t = ((cfg0.win 4).blk t).view.read (Elt Ideal) (Cert.Spec.slab Qa) := by
  have hodd : t.val % 2 = 1 := (flush0_4 t).mp hf
  show (cfg0.win 4).cut (grid0.coords t) ((dat0 (F := Ideal) V c).after 4 t) = _
  rw [after0_4]
  funext j
  obtain ⟨r, k, rfl⟩ : ∃ (r : Fin 8) (k : Fin 512), j = ix2 r k := ⟨j 0, j 1, eq_ix2 (n0 := 8) (n1 := 512) j⟩
  rw [View.read_apply]
  show (Gen.outsAt0 (F := Ideal) V c t.val t.isLt).2 (ix2 r k) = Cert.Spec.slab Qa (((cfg0.win 4).blk t).view.emb (ix2 r k))
  rw [emb4, hacc]
  exact acc_slab Qa t.val (lt4 t) hodd r k (slabRow t r) rfl

/-- An index of the slab is in tile t's block iff each coordinate is in the block's range on its axis. -/
theorem mem_blk4 (t : Fin cfg0.N) (i : S16x512.Idx) :
    i ∈ ((cfg0.win 4).blk t).view.set ↔ ∀ a : Fin 2, win0_4.index t a * S8x512.size a ≤ (i a).val
      ∧ (i a).val < win0_4.index t a * S8x512.size a + S8x512.size a := by
  show i ∈ ((View.whole main_v6_1).slice (win0_4.rect t)).set ↔ _
  rw [View.set_slice_whole, Rect.mem_set_unit]
  exact Iff.rfl

/-- Every index of the slab is in the block some core's second tile writes: row b by core b / 8, at tile 2·(b / 8) + 1. -/
theorem cover4 (i : S16x512.Idx) :
    ∃ t : Fin cfg0.N, (cfg0.win 4).flush t = true ∧ i ∈ ((cfg0.win 4).blk t).view.set := by
  have h0 : (i 0).val < 16 := (i 0).isLt
  have h1 : (i 1).val < 512 := (i 1).isLt
  have hN : cfg0.N = 4 := N_0
  obtain ⟨t, ht⟩ : ∃ t : Fin cfg0.N, t.val = (i 0).val / 8 * 2 + 1 := ⟨⟨(i 0).val / 8 * 2 + 1, by rw [hN]; omega⟩, rfl⟩
  obtain ⟨-, -, e0, e1⟩ := idx_facts t
  refine ⟨t, (flush0_4 t).mpr (by rw [ht]; omega), ?_⟩
  rw [mem_blk4]
  intro a
  match a with
  | ⟨0, _⟩ =>
    show win0_4.index t (0 : Fin 2) * 8 ≤ (i 0).val ∧ (i 0).val < win0_4.index t (0 : Fin 2) * 8 + 8
    rw [e0, ht]; omega
  | ⟨1, _⟩ =>
    show win0_4.index t (1 : Fin 2) * 512 ≤ (i 1).val ∧ (i 1).val < win0_4.index t (1 : Fin 2) * 512 + 512
    rw [e1]; omega

/-- THE SLAB AFTER THE REGION: the slab of `Qa`, when at every tile the body leaves in the accumulator block row 0 =
    the core's column sums so far and zero elsewhere. -/
theorem final4
    (hacc : ∀ (t : Fin cfg0.N) (r : Fin 8) (k : Fin 512),
      (Gen.outsAt0 (F := Ideal) V c t.val t.isLt).2 (ix2 r k) = if r.val = 0 then accRow Qa t.val (lt4 t) k else 0) :
    (Gen.dat0 (F := Ideal) V c).arrAt 4 cfg0.N = Cert.Spec.slab Qa :=
  (dat0 (F := Ideal) V c).arrAt_eq_of_cover 4 (Cert.Spec.slab Qa) (fun t hf => flushed4_eq V c Qa hacc t hf) cover4

end Cert.KernelIdeal.R0

end
-- ==== Proof.RefLemmas.lean ====
/-
  Small facts the reading of the reference's term rests on.

  Two constants as numbers; the Student-t kernel written as a power, (1 + s / 1) ^ (-1) for s the square root of a
  clamped number, against its quotient form 1 / (1 + s), on every extended real; a comparison of a number with itself
  for inequality is false, so a select guarded by it returns the number; a host sum along the rows, or down the
  columns, of a matrix read at an entry as the starting value plus the sum of that row, or column; a matrix laid as one
  slab of a stack read at an entry; and a stack of two slabs read in its first and in its second slab.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.ReferenceIdeal.RefValue

open Idealize.ShloMosaic Idealize.ShloMosaic.ValueIdx

/-! ## Constants and the kernel's two spellings -/

/-- The 32-bit pattern 0x3F800000 denotes 1. -/
theorem ofBits_one : Ideal.ofBits .f32 0x3F800000#32 = ((1 : ℝ) : EReal) := by
  simp [Ideal.ofBits, Ideal.ieee, -EReal.coe_mul]; norm_num

/-- The 32-bit pattern 0xBF800000 denotes -1. -/
theorem ofBits_minus_one : Ideal.ofBits .f32 0xBF800000#32 = ((-1 : ℝ) : EReal) := by
  simp [Ideal.ofBits, Ideal.ieee, -EReal.coe_mul, -EReal.coe_neg]; norm_num

/-- For s the square root of a number clamped below at zero, (1 + s / 1) ^ (-1) = 1 / (1 + s): at s = +∞ both are 0,
    at a real s ≥ 0 both are the reciprocal of the positive real 1 + s. -/
theorem kern_scalar (y : EReal) :
    Ideal.pow (((1 : ℝ) : EReal) + Ideal.div (Ideal.sqrt (max y 0)) ((1 : ℝ) : EReal)) ((-1 : ℝ) : EReal)
      = Ideal.div ((1 : ℝ) : EReal) (((1 : ℝ) : EReal) + Ideal.sqrt (max y 0)) := by
  have h0 : (0 : EReal) ≤ max y 0 := le_max_right _ _
  generalize max y 0 = w at h0
  induction w using EReal.rec with
  | bot => exact absurd h0 (by simp)
  | top =>
    have h1 : ((1 : ℝ) : EReal) ≠ 0 := by norm_num
    have ht : ((1 : ℝ) : EReal) + ⊤ = ⊤ := EReal.coe_add_top 1
    have hd : Ideal.div ⊤ ((1 : ℝ) : EReal) = ⊤ := by
      rw [Ideal.div, if_neg h1, ← EReal.coe_inv, inv_one]; exact EReal.top_mul_coe_of_pos one_pos
    have hn : ¬ (0 : EReal) < ((-1 : ℝ) : EReal) := by
      rw [not_lt]; exact_mod_cast (by norm_num : (-1 : ℝ) ≤ 0)
    have hn0 : ((-1 : ℝ) : EReal) ≠ 0 := by exact_mod_cast (by norm_num : (-1 : ℝ) ≠ 0)
    rw [Ideal.sqrt_top, hd, ht, Ideal.pow_top, if_neg hn, if_neg hn0, Ideal.div, if_neg EReal.top_ne_zero,
      EReal.inv_top, mul_zero]
  | coe r =>
    have hr : 0 ≤ r := by exact_mod_cast h0
    have hs : 0 ≤ Real.sqrt r := Real.sqrt_nonneg r
    have h1 : ((1 : ℝ) : EReal) ≠ 0 := by norm_num
    have hne : (1 + Real.sqrt r) ≠ 0 := by positivity
    have hne' : (((1 + Real.sqrt r : ℝ)) : EReal) ≠ 0 := by exact_mod_cast hne
    rw [Ideal.sqrt_coe, if_neg (not_lt.mpr hr)]
    rw [Ideal.div, if_neg h1, ← EReal.coe_inv, inv_one, ← EReal.coe_mul, mul_one, ← EReal.coe_add, Ideal.pow_coe_coe]
    rw [Ideal.div, if_neg hne', ← EReal.coe_inv, ← EReal.coe_mul, one_mul]
    congr 1
    exact Real.rpow_neg_one _

/-- A number is never unequal to itself, so a select guarded by that comparison returns the number. -/
theorem select_une_self {s : Shape} (x z : FVec Ideal s .f32) (i : s.Idx) :
    select (cmpf .une x x) z x i = x i := by
  rw [select_apply, cmpf_apply]
  have : FloatOps.cmpf (F := Ideal) .une (x i) (x i) = 0#1 := by
    show Ideal.cmp .une (x i) (x i) = 0#1
    simp [Ideal.cmp]
  rw [this, select_zero]

/-! ## Host sums over one axis of a matrix -/

/-- A host sum along the rows of a matrix, at row r: the starting value plus the sum of row r. -/
theorem rowSum_apply {M K : Nat} (x : FVec Ideal ⟨2, ![M, K]⟩ .f32) (init : FVec Ideal ⟨0, ![]⟩ .f32)
    (h' : (⟨2, ![M, K]⟩ : Shape).ReducesTo [1] ⟨1, ![M]⟩) (h : (⟨2, ![M, K]⟩ : Shape).Reduces [1] ⟨1, ![M]⟩)
    (hu : 0 < (⟨0, ![]⟩ : Shape).numel) (r : Fin M) :
    Host.reduceAdd x init h' hu (ix1 r) = init ix0 + ∑ k : Fin K, x (ix2 r k) := by
  rw [hostReduceAdd_apply, Ideal.hostReduceAdd_single h' h]
  have e0 : init (Shape.Idx.first hu) = init ix0 := congrArg init (funext fun a => a.elim0)
  rw [e0]
  show init ix0 + ∑ k : Fin K, x (h.lift (ix1 r) k) = _
  refine congrArg (init ix0 + ·) (Finset.sum_congr rfl fun k _ => congrArg x ?_)
  funext c
  apply Fin.ext
  match c with
  | ⟨0, _⟩ => rfl
  | ⟨1, _⟩ => rfl

/-- A host sum down the columns of a matrix, at column c: the starting value plus the sum of column c. -/
theorem colSum_apply {M K : Nat} (x : FVec Ideal ⟨2, ![M, K]⟩ .f32) (init : FVec Ideal ⟨0, ![]⟩ .f32)
    (h' : (⟨2, ![M, K]⟩ : Shape).ReducesTo [0] ⟨1, ![K]⟩) (h : (⟨2, ![M, K]⟩ : Shape).Reduces [0] ⟨1, ![K]⟩)
    (hu : 0 < (⟨0, ![]⟩ : Shape).numel) (c : Fin K) :
    Host.reduceAdd x init h' hu (ix1 c) = init ix0 + ∑ r : Fin M, x (ix2 r c) := by
  rw [hostReduceAdd_apply, Ideal.hostReduceAdd_single h' h]
  have e0 : init (Shape.Idx.first hu) = init ix0 := congrArg init (funext fun a => a.elim0)
  rw [e0]
  show init ix0 + ∑ r : Fin M, x (h.lift (ix1 c) r) = _
  refine congrArg (init ix0 + ·) (Finset.sum_congr rfl fun r _ => congrArg x ?_)
  funext a
  apply Fin.ext
  match a with
  | ⟨0, _⟩ => rfl
  | ⟨1, _⟩ => rfl

/-! ## A stack of two matrices -/

variable {α : Type}

/-- A matrix laid as the one slab of a one-slab stack: entry (u, b, k) is the matrix's entry (b, k). -/
theorem slab_apply {M N : Nat} (h : (⟨2, ![M, N]⟩ : Shape).BroadcastsInDim ⟨3, ![1, M, N]⟩ ![1, 2])
    (x : (⟨2, ![M, N]⟩ : Shape).Idx → α) (u : Fin 1) (b : Fin M) (k : Fin N) :
    broadcastInDim ⟨3, ![1, M, N]⟩ ![1, 2] h x (ix3 u b k) = x (ix2 b k) := by
  refine broadcastInDim_apply ![1, 2] h x (ix3 u b k) (ix2 b k) (fun a => ?_)
  match a with
  | ⟨0, _⟩ =>
    show b.val = if M = 1 then 0 else b.val
    split
    · have := b.isLt; omega
    · rfl
  | ⟨1, _⟩ =>
    show k.val = if N = 1 then 0 else k.val
    split
    · have := k.isLt; omega
    · rfl

/-- Two one-slab stacks joined along the leading axis: slab 0 is the first. -/
theorem stack_fst_apply {M N : Nat}
    (h : Shape.Concatenates [(⟨3, ![1, M, N]⟩ : Shape), (⟨3, ![1, M, N]⟩ : Shape)] ⟨3, ![2, M, N]⟩ 0)
    (x₁ x₂ : (⟨3, ![1, M, N]⟩ : Shape).Idx → α) (b : Fin M) (k : Fin N) :
    concatenate ⟨3, ![2, M, N]⟩ 0 [⟨⟨3, ![1, M, N]⟩, x₁⟩, ⟨⟨3, ![1, M, N]⟩, x₂⟩] h (ix3 (0 : Fin 2) b k)
      = x₁ (ix3 (0 : Fin 1) b k) :=
  concatenate_pair_apply_left 0 x₁ x₂ h (ix3 (0 : Fin 2) b k) rfl (ix3 (0 : Fin 1) b k) fun a =>
    match a with
    | ⟨0, _⟩ => rfl
    | ⟨1, _⟩ => rfl
    | ⟨2, _⟩ => rfl

/-- Two one-slab stacks joined along the leading axis: slab 1 is the second. -/
theorem stack_snd_apply {M N : Nat}
    (h : Shape.Concatenates [(⟨3, ![1, M, N]⟩ : Shape), (⟨3, ![1, M, N]⟩ : Shape)] ⟨3, ![2, M, N]⟩ 0)
    (x₁ x₂ : (⟨3, ![1, M, N]⟩ : Shape).Idx → α) (b : Fin M) (k : Fin N) :
    concatenate ⟨3, ![2, M, N]⟩ 0 [⟨⟨3, ![1, M, N]⟩, x₁⟩, ⟨⟨3, ![1, M, N]⟩, x₂⟩] h (ix3 (1 : Fin 2) b k)
      = x₂ (ix3 (0 : Fin 1) b k) :=
  concatenate_pair_apply_right 0 x₁ x₂ h (ix3 (1 : Fin 2) b k) rfl rfl (ix3 (0 : Fin 1) b k)
    (fun a ha =>
      match a, ha with
      | ⟨0, _⟩, ha => absurd rfl ha
      | ⟨1, _⟩, _ => rfl
      | ⟨2, _⟩, _ => rfl)
    rfl

end Cert.ReferenceIdeal.RefValue

end
-- ==== Proof.R0Host.lean ====
/-
  What the host operations before the first kernel region leave in the buffers the region reads.

  Seven host operations run before the first region: the centroids transposed and re-typed, and the centroids' squared
  norms — the entries squared, summed along each row from zero, laid as a column and transposed into a row. Read at an
  entry: the first argument is untouched; the transposed centroids hold at (h, k) the centroids' entry (k, h); the row of
  squared norms holds at (0, k) the sum over h of the square of the centroids' entry (k, h).
-/
import proofs.«136360_j17549236371952_2_alg».proof.Proof.Gen.KernelIdeal.Frame
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«136360_j17549236371952_2_alg».proof.Proof.LibHostRead
import proofs.«136360_j17549236371952_2_alg».proof.Proof.RefLemmas

noncomputable section

open scoped BigOperators

namespace Cert.KernelIdeal.H0

open Cert.KernelIdeal Cert.KernelIdeal.Gen Idealize.ShloMosaic Idealize.ShloMosaic.TcCoe Idealize.SL.Sem
open Idealize.ShloMosaic.StableHlo Idealize.ShloMosaic.ValueIdx Cert.Lib

variable (m : (ℓ : Loc nD τ sig) → Buf (Elt Ideal) ℓ) (ρ : Dev nD → PrngReg)

/-- The centroids as launched on a device, as an array of extended reals. -/
abbrev cn0 (c : Dev nD) : S512x2048.Idx → EReal := m ((c.tc : Thread nD τ).loc main_arg1)

/-- The first argument is as launched when the first region is entered. -/
theorem V1_arg0 (c : Dev nD) :
    (V1 m ρ c main_arg0 : S8192x2048.Idx → EReal) = m ((c.tc : Thread nD τ).loc main_arg0) := by
  dsimp only [V1, W1, W0, hostOps0]
  after_results
  all_goals rfl

/-- The transposed centroids, as an array. -/
theorem V1_v1_eq (c : Dev nD) :
    (V1 m ρ c main_v1 : S2048x512.Idx → EReal)
      = truncf (F := Ideal) .bf16 (transpose S2048x512 [1, 0] (m ((c.tc : Thread nD τ).loc main_arg1))
          transposes_S512x2048_S2048x512_1_0) bitsLt_bf16_f32 := by
  dsimp only [V1, W1, W0, hostOps0]
  after_results
  all_goals rfl

/-- The transposed centroids at (h, k): the centroids' entry (k, h). -/
theorem V1_v1_apply (c : Dev nD) (h : Fin 2048) (k : Fin 512) :
    @Eq EReal (V1 m ρ c main_v1 (ix2 h k)) (cn0 m c (ix2 k h)) := by
  rw [V1_v1_eq, truncf_apply]
  exact transpose_ix2_apply _ _ h k

/-- The row of the centroids' squared norms, as an array. -/
theorem V1_v5_eq (c : Dev nD) :
    (V1 m ρ c main_v5 : S1x512.Idx → EReal)
      = transpose S1x512 [1, 0]
          (broadcastInDim S512x1 ![0] bcast_S512_S512x1_0
            (Host.reduceAdd (mulf (F := Ideal) (m ((c.tc : Thread nD τ).loc main_arg1)) (m ((c.tc : Thread nD τ).loc main_arg1)))
              (constant (F := Ideal) S_ .f32 0x00000000#32) reducesTo_S512x2048_S512_d1 h_S_))
          transposes_S512x1_S1x512_1_0 := by
  dsimp only [V1, W1, W0, hostOps0]
  after_results
  all_goals rfl

/-- The row of squared norms at (0, k): the sum over h of the square of the centroids' entry (k, h). -/
theorem V1_v5_apply (c : Dev nD) (k : Fin 512) :
    @Eq EReal (V1 m ρ c main_v5 (ix2 (0 : Fin 1) k)) (∑ h : Fin 2048, cn0 m c (ix2 k h) * cn0 m c (ix2 k h)) := by
  rw [V1_v5_eq]
  refine (transpose_ix2_apply _ _ (0 : Fin 1) k).trans ?_
  refine (col_apply ![0] rfl bcast_S512_S512x1_0 _ k (0 : Fin 1)).trans ?_
  refine (Cert.ReferenceIdeal.RefValue.rowSum_apply _ _ reducesTo_S512x2048_S512_d1 (by decide) h_S_ k).trans ?_
  rw [constant_apply, Ideal.ofBits_zero_f32, zero_add]
  rfl

end Cert.KernelIdeal.H0

end
-- ==== Proof.Region1Body.lean ====
/-
  THE TARGET-DISTRIBUTION BLOCK, ELEMENT BY ELEMENT.

  From a [1024, 512] block x of a matrix and a [16, 512] slab s of partial column sums, the second kernel's body forms
  col k = ∑ᵢ s(i, k), praw(r, k) = x(r, k)² / col k and p(r, k) = praw(r, k) / ∑ₖ' praw(r, k'), and leaves a
  [2, 1024, 512] block whose plane 0 is x and whose plane 1 is p. This file reads that block at an element: each
  intermediate vector at an index (the two lane sums as plain sums over their axis), the two stored payloads at an
  index, and the two stores together as ONE function of the block's index.
-/
import proofs.«136360_j17549236371952_2_alg».proof.Proof.Gen.KernelIdeal.Frame
import proofs.«136360_j17549236371952_2_alg».proof.Proof.Spec
import proofs.«136360_j17549236371952_2_alg».proof.Proof.LibRowReads
import proofs.«136360_j17549236371952_2_alg».proof.Proof.LibColBroadcast
import proofs.«136360_j17549236371952_2_alg».proof.Proof.LibColCast
import Idealize.ShloMosaic.Lib.Pipeline.Value
import Idealize.ShloMosaic.Lib.ValueLayout
import Idealize.ShloMosaic.PureOps.Ideal.Laws

noncomputable section

open scoped BigOperators

namespace Cert.KernelIdeal.R1

open Cert.KernelIdeal Cert.KernelIdeal.Gen Idealize.ShloMosaic Idealize.ShloMosaic.ValueIdx Idealize.ShloMosaic.TcCoe Idealize.SL.Sem
open Idealize.ShloMosaic.Pipeline (Dat)
open Cert.Lib

/-- The column sums of the slab, as the body forms them: the lane sum over the 16 rows. -/
def colV (s : Vec Ideal S16x512 .f32) : FVec Ideal S512 .f32 :=
  multiReduction (F := Ideal) .add [0] S512 (shapeCast S16x512 s shapeCasts_S16x512_S16x512) 0x00000000#32 reduces_S16x512_S512 (.inl rfl) rfl

/-- The unnormalised target block: squares over column sums. -/
def prawV (x : Vec Ideal S1024x512 .f32) (s : Vec Ideal S16x512 .f32) : FVec Ideal S1024x512 .f32 :=
  divf (mulf (k1_pay1 x) (k1_pay1 x)) (broadcastTo S1024x512 (shapeCast S1x512 (colV s) shapeCasts_S512_S1x512) broadcasts_S1x512_S1024x512)

/-- Its row sums. -/
def rowV (x : Vec Ideal S1024x512 .f32) (s : Vec Ideal S16x512 .f32) : FVec Ideal S1024 .f32 :=
  multiReduction (F := Ideal) .add [1] S1024 (prawV x s) 0x00000000#32 reduces_S1024x512_S1024 (.inl rfl) rfl

/-- The second store's payload is the normalised block, laid out with a leading unit axis. -/
theorem pay3_eq (x : Vec Ideal S1024x512 .f32) (s : Vec Ideal S16x512 .f32) :
    k1_pay3 (F := Ideal) x s = shapeCast S1x1024x512 (divf (prawV x s) (broadcastTo S1024x512 (shapeCast S1024x1 (rowV x s) shapeCasts_S1024_S1024x1) broadcasts_S1024x1_S1024x512)) shapeCasts_S1024x512_S1x1024x512 := rfl

/-- A column sum at k: the sum of the slab's 16 rows at column k. -/
theorem colV_at (s : Vec Ideal S16x512 .f32) (k : Fin 512) : colV s (ix1 k) = ∑ i : Fin 16, s (ix2 i k) := by
  unfold colV
  refine (Ideal.multiReduction_add_single _ 0x00000000#32 reduces_S16x512_S512 (.inl rfl) rfl (ix1 k)).trans ?_
  rw [shapeCast_self]
  show ∑ i : Fin 16, s (reduces_S16x512_S512.lift (ix1 k) i) = _
  refine Finset.sum_congr rfl fun i _ => congrArg s ?_
  funext b
  apply Fin.ext
  match b with
  | ⟨0, _⟩ => rfl
  | ⟨1, _⟩ => rfl

/-- The unnormalised block at (r, k): the square over the column sum. -/
theorem prawV_at (x : Vec Ideal S1024x512 .f32) (s : Vec Ideal S16x512 .f32) (r : Fin 1024) (k : Fin 512) :
    prawV x s (ix2 r k) = Ideal.div (x (ix2 r k) * x (ix2 r k)) (∑ i : Fin 16, s (ix2 i k)) := by
  unfold prawV k1_pay1
  rw [divf_apply, mulf_apply, shapeCast_self, bcast_vec_apply, colV_at]

/-- A row sum at r: the sum of row r of the unnormalised block. -/
theorem rowV_at (x : Vec Ideal S1024x512 .f32) (s : Vec Ideal S16x512 .f32) (r : Fin 1024) :
    rowV x s (ix1 r) = ∑ k' : Fin 512, prawV x s (ix2 r k') := by
  unfold rowV
  refine (Ideal.multiReduction_add_single _ 0x00000000#32 reduces_S1024x512_S1024 (.inl rfl) rfl (ix1 r)).trans ?_
  show ∑ k' : Fin 512, prawV x s (reduces_S1024x512_S1024.lift (ix1 r) k') = _
  refine Finset.sum_congr rfl fun k' _ => congrArg (prawV x s) ?_
  funext b
  apply Fin.ext
  match b with
  | ⟨0, _⟩ => rfl
  | ⟨1, _⟩ => rfl

/-- The normalised target block at an element. -/
def pmBlk (x : Vec Ideal S1024x512 .f32) (s : Vec Ideal S16x512 .f32) (r : Fin 1024) (k : Fin 512) : EReal :=
  Ideal.div (Ideal.div (x (ix2 r k) * x (ix2 r k)) (∑ i : Fin 16, s (ix2 i k)))
    (∑ k' : Fin 512, Ideal.div (x (ix2 r k') * x (ix2 r k')) (∑ i : Fin 16, s (ix2 i k')))

/-- The second store's payload at (u, r, k). -/
theorem pay3_at (x : Vec Ideal S1024x512 .f32) (s : Vec Ideal S16x512 .f32) (u : Fin 1) (r : Fin 1024) (k : Fin 512) :
    k1_pay3 (F := Ideal) x s (ix3 u r k) = pmBlk x s r k := by
  rw [pay3_eq, shapeCast_ab_1ab_apply, divf_apply, broadcastTo_a1_ab_apply, shapeCast_a_a1_apply, rowV_at, prawV_at]
  unfold pmBlk
  congr 1
  exact Finset.sum_congr rfl fun k' _ => prawV_at x s r k'

/-- The first store's payload at (u, r, k): the matrix block at (r, k). -/
theorem pay2_at (x : Vec Ideal S1024x512 .f32) (u : Fin 1) (r : Fin 1024) (k : Fin 512) :
    k1_pay2 (F := Ideal) x (ix3 u r k) = x (ix2 r k) := by
  unfold k1_pay2 k1_pay1
  rw [shapeCast_ab_1ab_apply, shapeCast_self]

theorem hz2 : (![0, 0] : Fin 2 → Nat) = fun _ => 0 := funext fun a => by fin_cases a <;> rfl

/-- What the body leaves in the output block, as one function of the block's index: plane 0 the matrix block, plane 1
    the normalised target block. -/
def blkFun (x : Vec Ideal S1024x512 .f32) (s : Vec Ideal S16x512 .f32) : Vec Ideal S2x1024x512 .f32 :=
  fun y => if (y 0).val = 0 then x (ix2 (y 1) (y 2)) else pmBlk x s (y 1) (y 2)

theorem blkFun_zero (x : Vec Ideal S1024x512 .f32) (s : Vec Ideal S16x512 .f32) (r : Fin 1024) (k : Fin 512) :
    blkFun x s (ix3 (0 : Fin 2) r k) = x (ix2 r k) :=
  if_pos (show ((0 : Fin 2)).val = 0 from rfl)

theorem blkFun_one (x : Vec Ideal S1024x512 .f32) (s : Vec Ideal S16x512 .f32) (r : Fin 1024) (k : Fin 512) :
    blkFun x s (ix3 (1 : Fin 2) r k) = pmBlk x s r k :=
  if_neg (show ¬ ((1 : Fin 2)).val = 0 from by decide)

/-- The second store's rectangle is plane 1 of the block. -/
theorem emb_plane1 (u : Fin 1) (r : Fin 1024) (k : Fin 512) :
    (r1_3 : Rect S2x1024x512).emb (ix3 u r k) = ix3 (1 : Fin 2) r k := by
  have hu : u.val = 0 := by omega
  funext a
  apply Fin.ext
  match a with
  | ⟨0, _⟩ => show 1 + 1 * u.val = 1; omega
  | ⟨1, _⟩ => show 0 + 1 * r.val = r.val; omega
  | ⟨2, _⟩ => show 0 + 1 * k.val = k.val; omega

/-- The first store's rectangle is plane 0 of the block. -/
theorem emb_plane0 (u : Fin 1) (r : Fin 1024) (k : Fin 512) :
    (r1_2 : Rect S2x1024x512).emb (ix3 u r k) = ix3 (0 : Fin 2) r k := by
  have hu : u.val = 0 := by omega
  funext a
  apply Fin.ext
  match a with
  | ⟨0, _⟩ => show 0 + 1 * u.val = 0; omega
  | ⟨1, _⟩ => show 0 + 1 * r.val = r.val; omega
  | ⟨2, _⟩ => show 0 + 1 * k.val = k.val; omega

/-- The two stores together leave that function. -/
theorem out_eq (x : Vec Ideal S1024x512 .f32) (s : Vec Ideal S16x512 .f32) : out1_2 (F := Ideal) x s = blkFun x s := by
  funext y
  unfold out1_2
  simp only [View.ld_unit_zero (S := S1024x512) hz2, View.ld_unit_zero (S := S16x512) hz2]
  refine View.canon_apply_of_pieces (Val := Elt Ideal) (e := .f32) (blkFun x s) _ ?_ y (cover1_2 _ _ y)
  intro p hp x'
  simp only [List.mem_cons, List.not_mem_nil, or_false] at hp
  rcases hp with rfl | rfl
  · obtain ⟨u, r, k, rfl⟩ : ∃ (u : Fin 1) (r : Fin 1024) (k : Fin 512), x' = ix3 u r k :=
      ⟨x' 0, x' 1, x' 2, eq_ix3 (n0 := 1) (n1 := 1024) (n2 := 512) x'⟩
    show k1_pay3 (F := Ideal) x s (ix3 u r k) = blkFun x s ((r1_3 : Rect S2x1024x512).emb (ix3 u r k))
    rw [pay3_at, emb_plane1, blkFun_one]
  · obtain ⟨u, r, k, rfl⟩ : ∃ (u : Fin 1) (r : Fin 1024) (k : Fin 512), x' = ix3 u r k :=
      ⟨x' 0, x' 1, x' 2, eq_ix3 (n0 := 1) (n1 := 1024) (n2 := 512) x'⟩
    show k1_pay2 (F := Ideal) x (ix3 u r k) = blkFun x s ((r1_2 : Rect S2x1024x512).emb (ix3 u r k))
    rw [pay2_at, emb_plane0, blkFun_zero]

end Cert.KernelIdeal.R1

end
-- ==== Proof.Region1.lean ====
/-
  THE SECOND KERNEL'S OUTPUT, FROM BLOCKS TO THE ARRAY.

  The second kernel walks 8 row blocks of 1024 rows of a matrix Q : [8192, 512], with the whole slab C : [16, 512] of
  partial column sums at every step, and writes block t of a [2, 8192, 512] array: plane 0 the matrix block, plane 1
  its target distribution p(b, k) = (Q(b, k)² / col k) / ∑ₖ' (Q(b, k')² / col k'), col k = ∑ᵢ C(i, k). Row r of block t
  is row t·1024 + r of the matrix, the row sums run along a row, and the column sums come from the slab alone, so what
  point t writes is block t of ONE array, the stacked array of Q and C; the 8 blocks tile the output, so it ends
  holding that array.
-/
import proofs.«136360_j17549236371952_2_alg».proof.Proof.Region1Body

noncomputable section

open scoped BigOperators

namespace Cert.KernelIdeal.R1

open Cert.KernelIdeal Cert.KernelIdeal.Gen Idealize.ShloMosaic Idealize.ShloMosaic.ValueIdx Idealize.ShloMosaic.TcCoe Idealize.SL.Sem
open Idealize.ShloMosaic.Pipeline (Dat)
open Cert.Lib

/-- Row r of the block at grid point t, as a row of the whole matrix. -/
def rowAt (t : Fin cfg1.N) (r : Fin 1024) : Fin 8192 :=
  ⟨t.val * 1024 + r.val, by have := lt_of_lt_of_eq t.isLt N_1; have := r.isLt; omega⟩

/-- The three index maps over the grid: the matrix moves by row blocks, the slab stays, the output moves by row blocks
    of its middle axis. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 3) = 0 ∧ win1_2.index t (1 : Fin 3) = t.val ∧ win1_2.index t (2 : Fin 3) = 0 :=
  (by decide +kernel : ∀ t : Fin grid1.N, _)

variable (V : (c : Dev nD) → (b : Ref sig .tc) → Buf (Elt Ideal) ((c : Thread nD τ).loc b))

/-- The matrix window's block at point t, at (r, k): the matrix at row t·1024 + r. -/
theorem blk_x (c : Dev nD) (t : Fin cfg1.N) (r : Fin 1024) (k : Fin 512) :
    (iblk1 (F := Ideal) V c 0 t : Vec Ideal S1024x512 .f32) (ix2 r k) = (V c main_v6_0 : Spec.QArr) (ix2 (rowAt t r) k) := by
  obtain ⟨e0, e1, -⟩ := idx_facts t
  unfold iblk1
  rw [View.read_apply]
  show V c main_v6_0 _ = V c main_v6_0 _
  congr 1
  funext a
  apply Fin.ext
  match a with
  | ⟨0, _⟩ => show win1_0.index t (0 : Fin 2) * 1024 + 1 * r.val = t.val * 1024 + r.val; rw [e0]; omega
  | ⟨1, _⟩ => show win1_0.index t (1 : Fin 2) * 512 + 1 * k.val = k.val; rw [e1]; omega

/-- The slab window's block at any point is the slab. -/
theorem blk_s (c : Dev nD) (t : Fin cfg1.N) (i : Fin 16) (k : Fin 512) :
    (iblk1 (F := Ideal) V c 1 t : Vec Ideal S16x512 .f32) (ix2 i k) = (V c main_v6_1 : Spec.SArr) (ix2 i k) := by
  obtain ⟨-, -, e0, e1, -⟩ := idx_facts t
  unfold iblk1
  rw [View.read_apply]
  show V c main_v6_1 _ = V c main_v6_1 _
  congr 1
  funext a
  apply Fin.ext
  match a with
  | ⟨0, _⟩ => show win1_1.index t (0 : Fin 2) * 16 + 1 * i.val = i.val; rw [e0]; omega
  | ⟨1, _⟩ => show win1_1.index t (1 : Fin 2) * 512 + 1 * k.val = k.val; rw [e1]; omega

/-- An element (h, r, k) of the output window's block at point t sits in the output at (h, t·1024 + r, k). -/
theorem emb_out (t : Fin cfg1.N) (h : Fin 2) (r : Fin 1024) (k : Fin 512) :
    ((cfg1.win 2).blk t).view.emb (ix3 h r k) = (ix3 h (rowAt t r) k : S2x8192x512.Idx) := by
  obtain ⟨-, -, -, -, e0, e1, e2⟩ := idx_facts t
  funext a
  apply Fin.ext
  match a with
  | ⟨0, _⟩ => show win1_2.index t (0 : Fin 3) * 2 + 1 * h.val = h.val; rw [e0]; omega
  | ⟨1, _⟩ => show win1_2.index t (1 : Fin 3) * 1024 + 1 * r.val = t.val * 1024 + r.val; rw [e1]; omega
  | ⟨2, _⟩ => show win1_2.index t (2 : Fin 3) * 512 + 1 * k.val = k.val; rw [e2]; omega

/-- The body's block function of a block of a matrix Q and a slab C is the stacked array of Q and C read at the
    block's place. -/
theorem blkFun_eq_stacked (Q : Spec.QArr) (C : Spec.SArr) (x : Vec Ideal S1024x512 .f32) (s : Vec Ideal S16x512 .f32)
    (t : Fin cfg1.N) (hx : ∀ r k, x (ix2 r k) = Q (ix2 (rowAt t r) k)) (hs : ∀ i k, s (ix2 i k) = C (ix2 i k))
    (h : Fin 2) (r : Fin 1024) (k : Fin 512) :
    blkFun x s (ix3 h r k) = Spec.stacked Q C (ix3 h (rowAt t r) k) := by
  rw [Spec.stacked_ix3]
  show (if h.val = 0 then x (ix2 r k) else pmBlk x s r k) = _
  rw [hx]
  congr 1
  unfold pmBlk Spec.PmOf Spec.prawOf Spec.colOf
  simp only [hx, hs]

/-- What point t writes back is block t of the stacked array of the matrix and the slab as the region finds them. -/
theorem flushed_eq (c : Dev nD) (t : Fin cfg1.N) :
    (dat1 (F := Ideal) V c).flushed 2 t
      = ((cfg1.win 2).blk t).view.read (Elt Ideal) (Spec.stacked (V c main_v6_0) (V c main_v6_1)) := by
  show (cfg1.win 2).cut (grid1.coords t) ((dat1 (F := Ideal) V c).after 2 t) = _
  rw [after1_2, out_eq]
  funext j
  obtain ⟨h, r, k, rfl⟩ : ∃ (h : Fin 2) (r : Fin 1024) (k : Fin 512), j = ix3 h r k :=
    ⟨j 0, j 1, j 2, eq_ix3 (n0 := 2) (n1 := 1024) (n2 := 512) j⟩
  rw [View.read_apply]
  show blkFun (iblk1 (F := Ideal) V c 0 t) (iblk1 (F := Ideal) V c 1 t) (ix3 h r k)
    = Spec.stacked (V c main_v6_0) (V c main_v6_1) (((cfg1.win 2).blk t).view.emb (ix3 h r k))
  rw [emb_out]
  exact blkFun_eq_stacked (V c main_v6_0) (V c main_v6_1) _ _ t (blk_x V c t) (blk_s V c t) h r k

/-- An index of the output is in point t's block iff each coordinate is in the block's range on its axis. -/
theorem mem_blk (t : Fin cfg1.N) (i : S2x8192x512.Idx) :
    i ∈ ((cfg1.win 2).blk t).view.set ↔ ∀ a : Fin 3, win1_2.index t a * S2x1024x512.size a ≤ (i a).val
      ∧ (i a).val < win1_2.index t a * S2x1024x512.size a + S2x1024x512.size a := by
  show i ∈ ((View.whole main_v7).slice (win1_2.rect t)).set ↔ _
  rw [View.set_slice_whole, Rect.mem_set_unit]
  exact Iff.rfl

/-- Every index of the output is in some point's block: row b is covered by point b / 1024. -/
theorem cover (i : S2x8192x512.Idx) :
    ∃ t : Fin cfg1.N, (cfg1.win 2).flush t = true ∧ i ∈ ((cfg1.win 2).blk t).view.set := by
  have h0 : (i 0).val < 2 := (i 0).isLt
  have h1 : (i 1).val < 8192 := (i 1).isLt
  have h2 : (i 2).val < 512 := (i 2).isLt
  have hN : cfg1.N = 8 := N_1
  obtain ⟨t, ht⟩ : ∃ t : Fin cfg1.N, t.val = (i 1).val / 1024 := ⟨⟨(i 1).val / 1024, by rw [hN]; omega⟩, rfl⟩
  obtain ⟨-, -, -, -, e0, e1, e2⟩ := idx_facts t
  refine ⟨t, flush1_2 t, ?_⟩
  rw [mem_blk]
  intro a
  match a with
  | ⟨0, _⟩ =>
    show win1_2.index t (0 : Fin 3) * 2 ≤ (i 0).val ∧ (i 0).val < win1_2.index t (0 : Fin 3) * 2 + 2
    rw [e0]; omega
  | ⟨1, _⟩ =>
    show win1_2.index t (1 : Fin 3) * 1024 ≤ (i 1).val ∧ (i 1).val < win1_2.index t (1 : Fin 3) * 1024 + 1024
    rw [e1, ht]; omega
  | ⟨2, _⟩ =>
    show win1_2.index t (2 : Fin 3) * 512 ≤ (i 2).val ∧ (i 2).val < win1_2.index t (2 : Fin 3) * 512 + 512
    rw [e2]; omega

/-- THE OUTPUT AFTER THE REGION: the stacked array of the matrix and the slab as the region finds them — the matrix
    itself, and its target distribution from the slab's column sums. -/
theorem final1 (c : Dev nD) :
    (Gen.dat1 (F := Ideal) V c).arrAt 2 cfg1.N = Cert.Spec.stacked (V c main_v6_0) (V c main_v6_1) :=
  (dat1 (F := Ideal) V c).arrAt_eq_of_cover 2 _ (fun t _ => flushed_eq V c t) cover

end Cert.KernelIdeal.R1

end
-- ==== Proof.LibTileSums.lean ====
/-
  Sums and maxima over 8192 indices taken block by block, an accumulation from zero, and a few
  float constants as extended reals.

  An index r < T * B is written uniquely as r = B * j + c with j < T and c < B (j = r / B,
  c = r % B). So a sum over all r of f r is the double sum over j and c of f (B * j + c), in any
  commutative monoid (no finiteness of the terms is used), and the supremum over all r is the
  supremum over j of the supremum over c. The two instances wanted are 8192 = 16 * 512
  (column tiles) and 8192 = 4 * 2048 (row blocks).

  An accumulator that starts at 0 and adds the term of block j at step j ends at the sum of all
  the terms.

  The 32-bit patterns 0x39000000, 0x46000000, 0x3D800000, 0x40000000, 0xBF800000, 0x00000000 and
  0xFF800000 denote 1/8192, 8192, 1/16, 2, -1, 0 and ⊥; multiplying by the first is dividing by
  the second.
-/
import Mathlib
import Idealize.ShloMosaic.PureOps.Ideal
import Idealize.ShloMosaic.PureOps.Ideal.Laws

open scoped BigOperators
open Idealize.ShloMosaic

noncomputable section

namespace TileSums

/-! ### An index as (block, offset) -/

/-- The index B * j + c of offset c < B in block j < T, among N = T * B indices. -/
def blockIdx {T B N : ℕ} (h : T * B = N) (j : Fin T) (c : Fin B) : Fin N :=
  ⟨B * j.val + c.val, by
    have hj : j.val + 1 ≤ T := j.isLt
    have hc : c.val < B := c.isLt
    calc B * j.val + c.val < B * j.val + B := by omega
      _ = B * (j.val + 1) := by ring
      _ ≤ B * T := Nat.mul_le_mul_left B hj
      _ = N := by rw [Nat.mul_comm, h]⟩

/-- The value of the block index is B * j + c. -/
@[simp] theorem blockIdx_val {T B N : ℕ} (h : T * B = N) (j : Fin T) (c : Fin B) :
    (blockIdx h j c).val = B * j.val + c.val := rfl

/-- The bijection between pairs (block j < T, offset c < B) and indices below N = T * B:
    (j, c) ↦ B * j + c, with inverse r ↦ (r / B, r % B). -/
def blockEquiv {T B N : ℕ} (h : T * B = N) : Fin T × Fin B ≃ Fin N where
  toFun p := blockIdx h p.1 p.2
  invFun r :=
    (⟨r.val / B, Nat.div_lt_of_lt_mul (by
        calc r.val < N := r.isLt
          _ = B * T := by rw [← h, Nat.mul_comm])⟩,
     ⟨r.val % B, Nat.mod_lt _ (Nat.pos_of_ne_zero fun hB => by
        subst hB; rw [Nat.mul_zero] at h; subst h; exact r.elim0)⟩)
  left_inv p := by
    obtain ⟨j, c⟩ := p
    have hc : c.val < B := c.isLt
    have hB : 0 < B := by omega
    refine Prod.ext (Fin.ext ?_) (Fin.ext ?_)
    · show (B * j.val + c.val) / B = j.val
      rw [Nat.mul_add_div hB, Nat.div_eq_of_lt hc, Nat.add_zero]
    · show (B * j.val + c.val) % B = c.val
      rw [Nat.mul_add_mod, Nat.mod_eq_of_lt hc]
  right_inv r := by
    refine Fin.ext ?_
    show B * (r.val / B) + r.val % B = r.val
    exact Nat.div_add_mod _ _

/-- The bijection sends (j, c) to the block index of j and c. -/
theorem blockEquiv_apply {T B N : ℕ} (h : T * B = N) (p : Fin T × Fin B) :
    blockEquiv h p = blockIdx h p.1 p.2 := rfl

/-- The block of an index r is r / B. -/
theorem blockEquiv_symm_fst_val {T B N : ℕ} (h : T * B = N) (r : Fin N) :
    ((blockEquiv h).symm r).1.val = r.val / B := rfl

/-- The offset of an index r in its block is r % B. -/
theorem blockEquiv_symm_snd_val {T B N : ℕ} (h : T * B = N) (r : Fin N) :
    ((blockEquiv h).symm r).2.val = r.val % B := rfl

/-- A sum over N = T * B indices is the sum over the T blocks of the sums over the B offsets, in
    any commutative monoid. -/
theorem sum_blocks {M : Type*} [AddCommMonoid M] {T B N : ℕ} (h : T * B = N) (f : Fin N → M) :
    ∑ r, f r = ∑ j : Fin T, ∑ c : Fin B, f (blockIdx h j c) := by
  rw [← Fintype.sum_prod_type' (fun j c => f (blockIdx h j c))]
  exact (Fintype.sum_equiv (blockEquiv h) _ _ fun _ => rfl).symm

/-- A supremum over N = T * B indices is the supremum over all pairs (block, offset). -/
theorem sup_blocks_prod {α : Type*} [SemilatticeSup α] [OrderBot α] {T B N : ℕ} (h : T * B = N)
    (s : Fin N → α) :
    Finset.univ.sup s = Finset.univ.sup fun p : Fin T × Fin B => s (blockIdx h p.1 p.2) := by
  rw [← Finset.map_univ_equiv (blockEquiv h), Finset.sup_map]
  rfl

/-- A supremum over N = T * B indices is the supremum over the T blocks of the suprema over the
    B offsets. -/
theorem sup_blocks {α : Type*} [SemilatticeSup α] [OrderBot α] {T B N : ℕ} (h : T * B = N)
    (s : Fin N → α) :
    Finset.univ.sup s
      = Finset.univ.sup fun j : Fin T => Finset.univ.sup fun c : Fin B => s (blockIdx h j c) := by
  rw [sup_blocks_prod h, ← Finset.univ_product_univ, Finset.sup_product_left]

/-! ### 8192 columns as 16 tiles of 512 -/

/-- Column 512 * j + c: column c of tile j. -/
def tileIdx (j : Fin 16) (c : Fin 512) : Fin 8192 := blockIdx (by norm_num) j c

/-- The value of the tile index is 512 * j + c. -/
@[simp] theorem tileIdx_val (j : Fin 16) (c : Fin 512) :
    (tileIdx j c).val = 512 * j.val + c.val := rfl

/-- The bijection (j, c) ↦ 512 * j + c between 16 tiles of 512 columns and 8192 columns, with
    inverse r ↦ (r / 512, r % 512). -/
def tileEquiv : Fin 16 × Fin 512 ≃ Fin 8192 := blockEquiv (by norm_num)

/-- The bijection sends (j, c) to the tile index of j and c. -/
@[simp] theorem tileEquiv_apply (p : Fin 16 × Fin 512) : tileEquiv p = tileIdx p.1 p.2 := rfl

/-- The tile of column r is r / 512. -/
@[simp] theorem tileEquiv_symm_fst_val (r : Fin 8192) : (tileEquiv.symm r).1.val = r.val / 512 := rfl

/-- The column of r within its tile is r % 512. -/
@[simp] theorem tileEquiv_symm_snd_val (r : Fin 8192) : (tileEquiv.symm r).2.val = r.val % 512 := rfl

/-- A sum over the 8192 columns is the sum over the 16 tiles of the sums over their 512 columns. -/
theorem sum_tiles {M : Type*} [AddCommMonoid M] (f : Fin 8192 → M) :
    ∑ r, f r = ∑ j : Fin 16, ∑ c : Fin 512, f (tileIdx j c) :=
  sum_blocks _ f

/-- A supremum over the 8192 columns is the supremum over the 16 tiles of the suprema over their
    512 columns. -/
theorem sup_tiles {α : Type*} [SemilatticeSup α] [OrderBot α] (s : Fin 8192 → α) :
    Finset.univ.sup s
      = Finset.univ.sup fun j : Fin 16 => Finset.univ.sup fun c : Fin 512 => s (tileIdx j c) :=
  sup_blocks _ s

/-- A supremum over the 8192 columns is the supremum over all pairs (tile, column in the tile). -/
theorem sup_tiles_prod {α : Type*} [SemilatticeSup α] [OrderBot α] (s : Fin 8192 → α) :
    Finset.univ.sup s = Finset.univ.sup fun p : Fin 16 × Fin 512 => s (tileIdx p.1 p.2) :=
  sup_blocks_prod _ s

/-! ### 8192 rows as 4 blocks of 2048 -/

/-- Row 2048 * i + r: row r of block i. -/
def rowIdx (i : Fin 4) (r : Fin 2048) : Fin 8192 := blockIdx (by norm_num) i r

/-- The value of the row index is 2048 * i + r. -/
@[simp] theorem rowIdx_val (i : Fin 4) (r : Fin 2048) :
    (rowIdx i r).val = 2048 * i.val + r.val := rfl

/-- The bijection (i, r) ↦ 2048 * i + r between 4 blocks of 2048 rows and 8192 rows, with inverse
    n ↦ (n / 2048, n % 2048). -/
def rowEquiv : Fin 4 × Fin 2048 ≃ Fin 8192 := blockEquiv (by norm_num)

/-- The bijection sends (i, r) to the row index of i and r. -/
@[simp] theorem rowEquiv_apply (p : Fin 4 × Fin 2048) : rowEquiv p = rowIdx p.1 p.2 := rfl

/-- The block of row n is n / 2048. -/
@[simp] theorem rowEquiv_symm_fst_val (n : Fin 8192) : (rowEquiv.symm n).1.val = n.val / 2048 := rfl

/-- The row of n within its block is n % 2048. -/
@[simp] theorem rowEquiv_symm_snd_val (n : Fin 8192) : (rowEquiv.symm n).2.val = n.val % 2048 := rfl

/-- A sum over the 8192 rows is the sum over the 4 blocks of the sums over their 2048 rows. -/
theorem sum_rows {M : Type*} [AddCommMonoid M] (f : Fin 8192 → M) :
    ∑ n, f n = ∑ i : Fin 4, ∑ r : Fin 2048, f (rowIdx i r) :=
  sum_blocks _ f

/-- A supremum over the 8192 rows is the supremum over the 4 blocks of the suprema over their
    2048 rows. -/
theorem sup_rows {α : Type*} [SemilatticeSup α] [OrderBot α] (s : Fin 8192 → α) :
    Finset.univ.sup s
      = Finset.univ.sup fun i : Fin 4 => Finset.univ.sup fun r : Fin 2048 => s (rowIdx i r) :=
  sup_blocks _ s

/-! ### Maximum against ⊥, and a fold of max -/

/-- The larger of ⊥ and x is x. -/
theorem max_bot (x : EReal) : max ⊥ x = x := max_bot_left x

/-- A fold of max from ⊥ over a finite set is the supremum over that set. -/
theorem fold_max_bot {κ : Type*} (t : Finset κ) (f : κ → EReal) :
    t.fold max ⊥ f = t.sup f := rfl

/-! ### Accumulation from zero -/

variable {T : ℕ}

/-- The blocks of index below j. -/
def before (T j : ℕ) : Finset (Fin T) := Finset.univ.filter fun i => i.val < j

/-- No block has index below 0. -/
theorem before_zero : before T 0 = ∅ := by simp [before]

/-- The blocks of index below j + 1 are block j together with the blocks of index below j. -/
theorem before_succ (j : ℕ) (h : j < T) : before T (j + 1) = insert ⟨j, h⟩ (before T j) := by
  ext i
  simp only [before, Finset.mem_filter, Finset.mem_univ, true_and, Finset.mem_insert, Fin.ext_iff]
  omega

/-- Block j is not among the blocks of index below j. -/
theorem not_mem_before (j : ℕ) (h : j < T) : (⟨j, h⟩ : Fin T) ∉ before T j := by
  simp [before]

/-- Every one of the T blocks has index below T. -/
theorem before_self : before T T = Finset.univ := by
  ext i; simp [before]

/-- The accumulator after j blocks: 0 before any block, and each block adds its term g j. -/
def acc (g : Fin T → EReal) : (j : ℕ) → j ≤ T → EReal
  | 0, _ => 0
  | j + 1, h => acc g j (Nat.le_of_succ_le h) + g ⟨j, h⟩

/-- Before any block the accumulator is 0. -/
theorem acc_zero (g : Fin T → EReal) (h : 0 ≤ T) : acc g 0 h = 0 := rfl

/-- After j + 1 blocks the accumulator is its value after j blocks plus the term of block j. -/
theorem acc_succ (g : Fin T → EReal) (j : ℕ) (h : j + 1 ≤ T) :
    acc g (j + 1) h = acc g j (Nat.le_of_succ_le h) + g ⟨j, h⟩ := rfl

/-- After j blocks the accumulator is the sum of the terms of the blocks of index below j. -/
theorem acc_eq_sum_before (g : Fin T → EReal) (j : ℕ) (h : j ≤ T) :
    acc g j h = ∑ i ∈ before T j, g i := by
  classical
  induction j with
  | zero => rw [before_zero, Finset.sum_empty]; rfl
  | succ j ih =>
    rw [acc_succ, ih, before_succ j h, Finset.sum_insert (not_mem_before j h), add_comm]

/-- After all T blocks the accumulator is the sum of all the terms. -/
theorem acc_final (g : Fin T → EReal) : acc g T le_rfl = ∑ j, g j := by
  rw [acc_eq_sum_before, before_self]

/-- The accumulator whose step adds 0 + g j (a block's own sum started from 0) rather than g j:
    0 before any block, then acc + (0 + g j). -/
def accZ (g : Fin T → EReal) : (j : ℕ) → j ≤ T → EReal
  | 0, _ => 0
  | j + 1, h => accZ g j (Nat.le_of_succ_le h) + (0 + g ⟨j, h⟩)

/-- Before any block this accumulator is 0. -/
theorem accZ_zero (g : Fin T → EReal) (h : 0 ≤ T) : accZ g 0 h = 0 := rfl

/-- After j + 1 blocks this accumulator is its value after j blocks plus 0 + g j. -/
theorem accZ_succ (g : Fin T → EReal) (j : ℕ) (h : j + 1 ≤ T) :
    accZ g (j + 1) h = accZ g j (Nat.le_of_succ_le h) + (0 + g ⟨j, h⟩) := rfl

/-- Adding 0 + g j is adding g j: the two accumulators agree after every number of blocks. -/
theorem accZ_eq_acc (g : Fin T → EReal) (j : ℕ) (h : j ≤ T) : accZ g j h = acc g j h := by
  induction j with
  | zero => rfl
  | succ j ih => rw [accZ_succ, acc_succ, ih, zero_add]

/-- After all T blocks the accumulator with steps 0 + g j is the sum of all the terms. -/
theorem accZ_final (g : Fin T → EReal) : accZ g T le_rfl = ∑ j, g j := by
  rw [accZ_eq_acc, acc_final]

/-! ### Float constants as extended reals -/

/-- The 32-bit pattern 0x39000000 denotes 2⁻¹³ = 1/8192. -/
theorem ofBits_inv_8192 : Ideal.ofBits .f32 0x39000000#32 = ((1 / 8192 : ℝ) : EReal) := by
  simp [Ideal.ofBits, Ideal.ieee, -EReal.coe_mul]; norm_num

/-- The 32-bit pattern 0x46000000 denotes 2¹³ = 8192. -/
theorem ofBits_8192 : Ideal.ofBits .f32 0x46000000#32 = ((8192 : ℝ) : EReal) := by
  simp [Ideal.ofBits, Ideal.ieee, -EReal.coe_mul]; norm_num

/-- The 32-bit pattern 0x3D800000 denotes 2⁻⁴ = 1/16. -/
theorem ofBits_sixteenth : Ideal.ofBits .f32 0x3D800000#32 = ((1 / 16 : ℝ) : EReal) := by
  simp [Ideal.ofBits, Ideal.ieee, -EReal.coe_mul]; norm_num

/-- The 32-bit pattern 0x40000000 denotes 2. -/
theorem ofBits_two : Ideal.ofBits .f32 0x40000000#32 = ((2 : ℝ) : EReal) := by
  simp [Ideal.ofBits, Ideal.ieee, -EReal.coe_mul]; norm_num

/-- The 32-bit pattern 0xBF800000 denotes -1. -/
theorem ofBits_neg_one : Ideal.ofBits .f32 0xBF800000#32 = ((-1 : ℝ) : EReal) := by
  simp [Ideal.ofBits, Ideal.ieee, -EReal.coe_mul, -EReal.coe_neg]; norm_num

/-- The 32-bit pattern 0x00000000 denotes 0. -/
theorem ofBits_zero : Ideal.ofBits .f32 0x00000000#32 = 0 := Ideal.ofBits_zero_f32

/-- The 32-bit pattern 0xFF800000 denotes ⊥ (minus infinity). -/
theorem ofBits_neg_inf : Ideal.ofBits .f32 0xFF800000#32 = ⊥ := by
  simp [Ideal.ofBits, Ideal.ieee]

/-- Multiplying by the constant 1/8192 is dividing by the constant 8192, for every extended
    real x (the infinities included). -/
theorem mul_inv_8192_eq_div (x : EReal) :
    x * Ideal.ofBits .f32 0x39000000#32 = Ideal.div x (Ideal.ofBits .f32 0x46000000#32) := by
  rw [ofBits_inv_8192, ofBits_8192, Ideal.div_coe (by norm_num : (8192 : ℝ) ≠ 0)]

end TileSums
-- ==== Proof.Algebra.lean ====
/-
  The slab of partial column sums a two-core accumulation leaves adds up to the column sums: its rows 0 and 8 hold
  the sums over tiles {0, 1} and {2, 3} of 2048 rows each and the other fourteen rows are zero, so summing the
  sixteen rows gives the sum over the four tiles, which is the sum over all 8192 rows (addition of extended reals is
  commutative and associative, so the regrouping holds whatever the values). Hence the target distribution formed from
  the soft assignment and that slab is the one formed from the true column sums.
-/
import proofs.«136360_j17549236371952_2_alg».proof.Proof.Spec
import proofs.«136360_j17549236371952_2_alg».proof.Proof.LibTileSums

noncomputable section

namespace Cert.Spec

open Idealize.ShloMosaic Idealize.ShloMosaic.ValueIdx

theorem tileRow_eq (i : Fin 4) (r : Fin 2048) : tileRow i r = TileSums.rowIdx i r :=
  Fin.ext (by show i.val * 2048 + r.val = 2048 * i.val + r.val; omega)

/-- The four tile sums add up to the column sum. -/
theorem sum_tiles (Qa : QArr) (k : Fin 512) :
    ∑ b : Fin 8192, Qa (ix2 b k) = tileSum Qa 0 k + tileSum Qa 1 k + (tileSum Qa 2 k + tileSum Qa 3 k) := by
  rw [TileSums.sum_rows, Fin.sum_univ_four]
  unfold tileSum
  simp only [tileRow_eq]
  rw [add_assoc (∑ r : Fin 2048, Qa (ix2 (TileSums.rowIdx 0 r) k) + ∑ r : Fin 2048, Qa (ix2 (TileSums.rowIdx 1 r) k))]

/-- A slab row is its row-0 value if the row is 0, its row-8 value if the row is 8, and zero otherwise. -/
theorem slab_row (Qa : QArr) (r : Fin 16) (k : Fin 512) :
    slab Qa (ix2 r k) = (if r = 0 then tileSum Qa 0 k + tileSum Qa 1 k else 0)
      + (if r = 8 then tileSum Qa 2 k + tileSum Qa 3 k else 0) := by
  rw [slab_ix2]
  by_cases h0 : r.val = 0
  · obtain rfl : r = 0 := Fin.ext h0
    simp
  · by_cases h8 : r.val = 8
    · obtain rfl : r = 8 := Fin.ext h8
      simp
    · have n0 : r ≠ 0 := fun h => h0 (by rw [h]; rfl)
      have n8 : r ≠ 8 := fun h => h8 (by rw [h]; rfl)
      simp [h0, h8, n0, n8]

/-- The slab's sixteen rows add up to the column sums. -/
theorem colOf_slab (Qa : QArr) (k : Fin 512) : colOf (slab Qa) k = ∑ b : Fin 8192, Qa (ix2 b k) := by
  unfold colOf
  simp only [slab_row]
  rw [Finset.sum_add_distrib, Finset.sum_ite_eq' Finset.univ (0 : Fin 16), Finset.sum_ite_eq' Finset.univ (8 : Fin 16),
    if_pos (Finset.mem_univ _), if_pos (Finset.mem_univ _), sum_tiles]

/-- The soft assignment read as an array, at (b, k). -/
theorem Qarr_apply (z : ZArr) (cn : CArr) (b : Fin 8192) (k : Fin 512) : Qarr z cn (ix2 b k) = Q z cn b k := rfl

/-- From the soft assignment and its accumulated slab, the stacked result is the specification. -/
theorem stacked_slab (z : ZArr) (cn : CArr) : stacked (Qarr z cn) (slab (Qarr z cn)) = G z cn := by
  have hp : ∀ (b : Fin 8192) (k : Fin 512), prawOf (Qarr z cn) (slab (Qarr z cn)) b k = praw z cn b k := by
    intro b k
    unfold prawOf praw col
    rw [colOf_slab]
    rfl
  funext j
  obtain ⟨s, b, k, rfl⟩ : ∃ (s : Fin 2) (b : Fin 8192) (k : Fin 512), j = ix3 s b k := ⟨j 0, j 1, j 2, eq_ix3 j⟩
  rw [stacked_ix3, G_ix3]
  by_cases h : s.val = 0
  · rw [if_pos h, if_pos h]; rfl
  · rw [if_neg h, if_neg h]
    unfold PmOf Pm
    simp only [hp]

end Cert.Spec

end
-- ==== Proof.KValue.lean ====
/-
  The kernel program's result, as a function of its two arguments. The second region leaves in the result array the
  soft assignment it was given stacked with the target distribution formed from it and from the slab of partial column
  sums; the first region leaves, in those two arrays, the soft assignment of the batch and the slab its two cores
  accumulate; the host operations before it hand it the batch, the transposed centroids and their squared norms. The
  slab's rows add up to the column sums, so the result is the specification.
-/
import proofs.«136360_j17549236371952_2_alg».proof.Proof.KRun
import proofs.«136360_j17549236371952_2_alg».proof.Proof.R0Acc
import proofs.«136360_j17549236371952_2_alg».proof.Proof.R0Final
import proofs.«136360_j17549236371952_2_alg».proof.Proof.R0Host
import proofs.«136360_j17549236371952_2_alg».proof.Proof.Region1
import proofs.«136360_j17549236371952_2_alg».proof.Proof.Algebra

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen Cert.Spec

variable (m : (ℓ : Loc nD τ sig) → Buf (Elt Ideal) ℓ) (ρ : Dev nD → PrngReg)

/-- After the first region: the soft assignment of the batch. -/
theorem V2_q (c : Dev nD) :
    (V2 m ρ c main_v6_0 : S8192x512.Idx → EReal)
      = Qarr (m ((c.tc : Thread nD τ).loc main_arg0)) (m ((c.tc : Thread nD τ).loc main_arg1)) :=
  (W2_arr m ρ c 3).trans (R0.final3 (V1 m ρ) c _ fun t r k =>
    (R0.outs_eq (V1 m ρ) c _ _ (H0.V1_arg0 m ρ c) (H0.V1_v1_apply m ρ c) (H0.V1_v5_apply m ρ c) t.val t.isLt).1 r k)

/-- After the first region: the slab the two cores accumulated. -/
theorem V2_slab (c : Dev nD) :
    (V2 m ρ c main_v6_1 : S16x512.Idx → EReal)
      = slab (Qarr (m ((c.tc : Thread nD τ).loc main_arg0)) (m ((c.tc : Thread nD τ).loc main_arg1))) :=
  (W2_arr m ρ c 4).trans (R0.final4 (V1 m ρ) c _ fun t r k =>
    (R0.outs_eq (V1 m ρ) c _ _ (H0.V1_arg0 m ρ c) (H0.V1_v1_apply m ρ c) (H0.V1_v5_apply m ρ c) t.val t.isLt).2 r k)

/-- The result array after the run is the specification of the two arguments. -/
theorem result_eq (c : Dev nD) :
    (W3 m ρ c (Proc.devRef .tc main_v7) : S2x8192x512.Idx → EReal)
      = G (m ((c.tc : Thread nD τ).loc main_arg0)) (m ((c.tc : Thread nD τ).loc main_arg1)) := by
  refine (W3_arr m ρ c 2).trans ((R1.final1 (V2 m ρ) c).trans ?_)
  rw [V2_q m ρ c, V2_slab m ρ c]
  exact stacked_slab _ _

/-- The run: the result at the specification, the arguments unchanged. -/
theorem run : θ_run (defs (F := Ideal)) (onTc (τ := τ) (main (F := Ideal))) ⟨m, fun _ => 0, ρ⟩ (fun r => ∀ c : Dev nD,
      r.2.mem ((c.tc : Thread nD τ).loc main_v7)
        = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m ρ c), (h c).2⟩) (run_W3 (F := Ideal) m ρ)

end Cert.KernelIdeal.KValue

end
-- ==== Proof.RefOps.lean ====
/-
  The reference program as a straight line of host operations.

  The reference's entry function is fifty-six tensor operations once its two calls of the row-sum-ignoring-NaN helper
  are written out at their call sites (each call is seven operations: the self-comparison, a zero, the zero broadcast,
  the select, a second zero, the row sum, and the recast of the sums as a column). Run in order from any memory, the
  line terminates and leaves every buffer at the fold of the operations' results over the launch contents.
-/
import proofs.«136360_j17549236371952_2_alg».proof.ReferenceIdeal
import proofs.«136360_j17549236371952_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, the helper's seven written out at each of its two calls. -/
abbrev ops : List (HloOp τ sig (Elt F)) :=
  [ binary main_arg0 main_arg0 main_v0 (mulf : (⟨S8192x2048, .f32⟩ : BufTy).Contents (Elt F) → (⟨S8192x2048, .f32⟩ : BufTy).Contents (Elt F) → (⟨S8192x2048, .f32⟩ : BufTy).Contents (Elt F)),
    nullary main_cst (constant S_ .f32 0x00000000#32),
    binary main_v0 main_cst main_v1 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    binary main_arg1 main_arg1 main_v3 (mulf : (⟨S512x2048, .f32⟩ : BufTy).Contents (Elt F) → (⟨S512x2048, .f32⟩ : BufTy).Contents (Elt F) → (⟨S512x2048, .f32⟩ : BufTy).Contents (Elt F)),
    nullary main_cst_0 (constant S_ .f32 0x00000000#32),
    binary main_v3 main_cst_0 main_v4 ((fun x v => Host.reduceAdd x v reducesTo_S512x2048_S512_d1 h_S_) : (⟨S512x2048, .f32⟩ : BufTy).Contents (Elt F) → (⟨S_, .f32⟩ : BufTy).Contents (Elt F) → (⟨S512, .f32⟩ : BufTy).Contents (Elt F)),
    unary main_v4 main_v5 (broadcastInDim S1x512 ![1] bcast_S512_S1x512_1 : (⟨S512, .f32⟩ : BufTy).Contents (Elt F) → (⟨S1x512, .f32⟩ : BufTy).Contents (Elt F)),
    binary main_arg0 main_arg1 main_v6 ((fun l r => Host.dotGeneral dot_S8192x2048_S512x2048_S8192x512_1_1_0_0_n_n none l r) : (⟨S8192x2048, .f32⟩ : BufTy).Contents (Elt F) → (⟨S512x2048, .f32⟩ : BufTy).Contents (Elt F) → (⟨S8192x512, .f32⟩ : BufTy).Contents (Elt F)),
    unary main_v2 main_v7 (broadcastInDim S8192x512 ![0, 1] bcast_S8192x1_S8192x512_0_1 : (⟨S8192x1, .f32⟩ : BufTy).Contents (Elt F) → (⟨S8192x512, .f32⟩ : BufTy).Contents (Elt F)),
    unary main_v5 main_v8 (broadcastInDim S8192x512 ![0, 1] bcast_S1x512_S8192x512_0_1 : (⟨S1x512, .f32⟩ : BufTy).Contents (Elt F) → (⟨S8192x512, .f32⟩ : BufTy).Contents (Elt F)),
    binary main_v7 main_v8 main_v9 (addf : (⟨S8192x512, .f32⟩ : BufTy).Contents (Elt F) → (⟨S8192x512, .f32⟩ : BufTy).Contents (Elt F) → (⟨S8192x512, .f32⟩ : BufTy).Contents (Elt F)),
    nullary main_cst_1 (constant S_ .f32 0x40000000#32),
    unary main_cst_1 main_v10 (broadcastInDim S8192x512 ![] bcast_S_S8192x512 : (⟨S_, .f32⟩ : BufTy).Contents (Elt F) → (⟨S8192x512, .f32⟩ : BufTy).Contents (Elt F)),
    binary main_v10 main_v6 main_v11 (mulf : (⟨S8192x512, .f32⟩ : BufTy).Contents (Elt F) → (⟨S8192x512, .f32⟩ : BufTy).Contents (Elt F) → (⟨S8192x512, .f32⟩ : BufTy).Contents (Elt F)),
    binary main_v9 main_v11 main_v12 (subf : (⟨S8192x512, .f32⟩ : BufTy).Contents (Elt F) → (⟨S8192x512, .f32⟩ : BufTy).Contents (Elt F) → (⟨S8192x512, .f32⟩ : BufTy).Contents (Elt F)),
    nullary main_cst_2 (constant S_ .f32 0x00000000#32),
    unary main_cst_2 main_v13 (broadcastInDim S8192x512 ![] bcast_S_S8192x512 : (⟨S_, .f32⟩ : BufTy).Contents (Elt F) → (⟨S8192x512, .f32⟩ : BufTy).Contents (Elt F)),
    binary main_v12 main_v13 main_v14 (maximumf : (⟨S8192x512, .f32⟩ : BufTy).Contents (Elt F) → (⟨S8192x512, .f32⟩ : BufTy).Contents (Elt F) → (⟨S8192x512, .f32⟩ : BufTy).Contents (Elt F)),
    unary main_v14 main_v15 (Host.sqrt : (⟨S8192x512, .f32⟩ : BufTy).Contents (Elt F) → (⟨S8192x512, .f32⟩ : BufTy).Contents (Elt F)),
    nullary main_cst_3 (constant S_ .f32 0x3F800000#32),
    unary main_cst_3 main_v16 (broadcastInDim S8192x512 ![] bcast_S_S8192x512 : (⟨S_, .f32⟩ : BufTy).Contents (Elt F) → (⟨S8192x512, .f32⟩ : BufTy).Contents (Elt F)),
    binary main_v15 main_v16 main_v17 (Host.divf : (⟨S8192x512, .f32⟩ : BufTy).Contents (Elt F) → (⟨S8192x512, .f32⟩ : BufTy).Contents (Elt F) → (⟨S8192x512, .f32⟩ : BufTy).Contents (Elt F)),
    nullary main_cst_4 (constant S_ .f32 0x3F800000#32),
    unary main_cst_4 main_v18 (broadcastInDim S8192x512 ![] bcast_S_S8192x512 : (⟨S_, .f32⟩ : BufTy).Contents (Elt F) → (⟨S8192x512, .f32⟩ : BufTy).Contents (Elt F)),
    binary main_v18 main_v17 main_v19 (addf : (⟨S8192x512, .f32⟩ : BufTy).Contents (Elt F) → (⟨S8192x512, .f32⟩ : BufTy).Contents (Elt F) → (⟨S8192x512, .f32⟩ : BufTy).Contents (Elt F)),
    nullary main_cst_5 (constant S_ .f32 0xBF800000#32),
    unary main_cst_5 main_v20 (broadcastInDim S8192x512 ![] bcast_S_S8192x512 : (⟨S_, .f32⟩ : BufTy).Contents (Elt F) → (⟨S8192x512, .f32⟩ : BufTy).Contents (Elt F)),
    binary main_v19 main_v20 main_v21 (Host.powf : (⟨S8192x512, .f32⟩ : BufTy).Contents (Elt F) → (⟨S8192x512, .f32⟩ : BufTy).Contents (Elt F) → (⟨S8192x512, .f32⟩ : BufTy).Contents (Elt F)),
    TRef.binary (.of main_v21) (.of main_v21) main_call0.v0 (cmpf .une),
    TRef.nullary main_call0.cst (constant S_ .f32 0x00000000#32),
    TRef.unary main_call0.cst main_call0.call0.v0 (broadcastInDim S8192x512 ![] bcast_S_S8192x512),
    TRef.ternary main_call0.v0 main_call0.call0.v0 (.of main_v21) main_call0.call0.v1 select,
    TRef.nullary main_call0.cst_0 (constant S_ .f32 0x00000000#32),
    TRef.binary main_call0.call0.v1 main_call0.cst_0 main_call0.v2 (fun x v => Host.reduceAdd x v reducesTo_S8192x512_S8192_d1 h_S_),
    TRef.unary main_call0.v2 main_call0.v3 (broadcastInDim S8192x1 ![0] bcast_S8192_S8192x1_0),
    unary main_v22 main_v23 (broadcastInDim S8192x512 ![0, 1] bcast_S8192x1_S8192x512_0_1 : (⟨S8192x1, .f32⟩ : BufTy).Contents (Elt F) → (⟨S8192x512, .f32⟩ : BufTy).Contents (Elt F)),
    binary main_v21 main_v23 main_v24 (Host.divf : (⟨S8192x512, .f32⟩ : BufTy).Contents (Elt F) → (⟨S8192x512, .f32⟩ : BufTy).Contents (Elt F) → (⟨S8192x512, .f32⟩ : BufTy).Contents (Elt F)),
    binary main_v24 main_v24 main_v25 (mulf : (⟨S8192x512, .f32⟩ : BufTy).Contents (Elt F) → (⟨S8192x512, .f32⟩ : BufTy).Contents (Elt F) → (⟨S8192x512, .f32⟩ : BufTy).Contents (Elt F)),
    nullary main_cst_6 (constant S_ .f32 0x00000000#32),
    binary main_v24 main_cst_6 main_v26 ((fun x v => Host.reduceAdd x v reducesTo_S8192x512_S512_d0 h_S_) : (⟨S8192x512, .f32⟩ : BufTy).Contents (Elt F) → (⟨S_, .f32⟩ : BufTy).Contents (Elt F) → (⟨S512, .f32⟩ : BufTy).Contents (Elt F)),
    unary main_v26 main_v27 (broadcastInDim S1x512 ![1] bcast_S512_S1x512_1 : (⟨S512, .f32⟩ : BufTy).Contents (Elt F) → (⟨S1x512, .f32⟩ : BufTy).Contents (Elt F)),
    unary main_v27 main_v28 (broadcastInDim S8192x512 ![0, 1] bcast_S1x512_S8192x512_0_1 : (⟨S1x512, .f32⟩ : BufTy).Contents (Elt F) → (⟨S8192x512, .f32⟩ : BufTy).Contents (Elt F)),
    binary main_v25 main_v28 main_v29 (Host.divf : (⟨S8192x512, .f32⟩ : BufTy).Contents (Elt F) → (⟨S8192x512, .f32⟩ : BufTy).Contents (Elt F) → (⟨S8192x512, .f32⟩ : BufTy).Contents (Elt F)),
    TRef.binary (.of main_v29) (.of main_v29) main_call1.v0 (cmpf .une),
    TRef.nullary main_call1.cst (constant S_ .f32 0x00000000#32),
    TRef.unary main_call1.cst main_call1.call0.v0 (broadcastInDim S8192x512 ![] bcast_S_S8192x512),
    TRef.ternary main_call1.v0 main_call1.call0.v0 (.of main_v29) main_call1.call0.v1 select,
    TRef.nullary main_call1.cst_0 (constant S_ .f32 0x00000000#32),
    TRef.binary main_call1.call0.v1 main_call1.cst_0 main_call1.v2 (fun x v => Host.reduceAdd x v reducesTo_S8192x512_S8192_d1 h_S_),
    TRef.unary main_call1.v2 main_call1.v3 (broadcastInDim S8192x1 ![0] bcast_S8192_S8192x1_0),
    unary main_v30 main_v31 (broadcastInDim S8192x512 ![0, 1] bcast_S8192x1_S8192x512_0_1 : (⟨S8192x1, .f32⟩ : BufTy).Contents (Elt F) → (⟨S8192x512, .f32⟩ : BufTy).Contents (Elt F)),
    binary main_v29 main_v31 main_v32 (Host.divf : (⟨S8192x512, .f32⟩ : BufTy).Contents (Elt F) → (⟨S8192x512, .f32⟩ : BufTy).Contents (Elt F) → (⟨S8192x512, .f32⟩ : BufTy).Contents (Elt F)),
    unary main_v24 main_v33 (broadcastInDim S1x8192x512 ![1, 2] bcast_S8192x512_S1x8192x512_1_2 : (⟨S8192x512, .f32⟩ : BufTy).Contents (Elt F) → (⟨S1x8192x512, .f32⟩ : BufTy).Contents (Elt F)),
    unary main_v32 main_v34 (broadcastInDim S1x8192x512 ![1, 2] bcast_S8192x512_S1x8192x512_1_2 : (⟨S8192x512, .f32⟩ : BufTy).Contents (Elt F) → (⟨S1x8192x512, .f32⟩ : BufTy).Contents (Elt F)),
    binary main_v33 main_v34 main_v35 ((fun a b => concatenate S2x8192x512 0 [⟨S1x8192x512, a⟩, ⟨S1x8192x512, b⟩] concatenates_S1x8192x512_S1x8192x512_S2x8192x512_d0) : (⟨S1x8192x512, .f32⟩ : BufTy).Contents (Elt F) → (⟨S1x8192x512, .f32⟩ : BufTy).Contents (Elt F) → (⟨S2x8192x512, .f32⟩ : BufTy).Contents (Elt F)) ]

set_option maxRecDepth 2048 in
/-- The entry function is that line: the helpers' bodies unfolded at their calls, sequencing reassociated. -/
theorem main_eq (c : Dev nD) : main (F := F) c = seq ops := by
  simp only [main, fn_nansum.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., ternary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub .., binary_bufs_sub .., nullary_bufs_sub .., unary_bufs_sub .., ternary_bufs_sub .., nullary_bufs_sub .., binary_bufs_sub .., unary_bufs_sub .., unary_bufs_sub .., binary_bufs_sub .., unary_bufs_sub .., unary_bufs_sub .., binary_bufs_sub ..⟩

/-- From any memory with zero counters every weakly fair execution of the entry function terminates, and every
    buffer ends at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  The reference's result as a composed term of its two argument arrays, in named stages.

  Each stage is the pure operations of a stretch of the reference applied to the stage before: the squared norms of
  the rows of both arguments, the cross products, the clamped squared distance, the Student-t kernel as a power, the row
  sum that ignores undefined entries, the soft assignment, its column sums, the squared assignments over the column
  sums, their row normalisation, and the two matrices stacked.
-/
import proofs.«136360_j17549236371952_2_alg».proof.ReferenceIdeal
import proofs.«136360_j17549236371952_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- An array of extended reals of a given shape. -/
abbrev Arr (s : Shape) : Type := FVec Ideal s .f32

/-- A constant spread over the 8192 by 512 matrix. -/
def splat (w : BitVec 32) : Arr S8192x512 :=
  broadcastInDim S8192x512 ![] bcast_S_S8192x512 (constant (F := Ideal) S_ .f32 w)

/-- The scalar zero every sum starts from. -/
def zero0 : Arr S_ := constant (F := Ideal) S_ .f32 0x00000000#32

/-- The squared norm of each point, repeated along the centroids' axis. -/
def zsqB (z : Arr S8192x2048) : Arr S8192x512 :=
  broadcastInDim S8192x512 ![0, 1] bcast_S8192x1_S8192x512_0_1
    (broadcastInDim S8192x1 ![0] bcast_S8192_S8192x1_0
      (Host.reduceAdd (mulf z z) zero0 reducesTo_S8192x2048_S8192_d1 h_S_))

/-- The squared norm of each centroid, repeated down the points' axis. -/
def csqB (cn : Arr S512x2048) : Arr S8192x512 :=
  broadcastInDim S8192x512 ![0, 1] bcast_S1x512_S8192x512_0_1
    (broadcastInDim S1x512 ![1] bcast_S512_S1x512_1
      (Host.reduceAdd (mulf cn cn) zero0 reducesTo_S512x2048_S512_d1 h_S_))

/-- The inner products of points with centroids. -/
def cross (z : Arr S8192x2048) (cn : Arr S512x2048) : Arr S8192x512 :=
  Host.dotGeneral dot_S8192x2048_S512x2048_S8192x512_1_1_0_0_n_n none z cn

/-- The clamped squared distances by the expanded quadratic form. -/
def dist2 (z : Arr S8192x2048) (cn : Arr S512x2048) : Arr S8192x512 :=
  maximumf (subf (addf (zsqB z) (csqB cn)) (mulf (splat 0x40000000#32) (cross z cn))) (splat 0x00000000#32)

/-- The Student-t kernel as the reference writes it: (1 + distance / 1) to the power -1. -/
def kern (z : Arr S8192x2048) (cn : Arr S512x2048) : Arr S8192x512 :=
  Host.powf (addf (splat 0x3F800000#32) (Host.divf (Host.sqrt (dist2 z cn)) (splat 0x3F800000#32))) (splat 0xBF800000#32)

/-- The row sums of a matrix with the entries that differ from themselves replaced by zero, as a column. -/
def rowSumCol (x : Arr S8192x512) : Arr S8192x1 :=
  broadcastInDim S8192x1 ![0] bcast_S8192_S8192x1_0
    (Host.reduceAdd (select (cmpf .une x x) (broadcastInDim S8192x512 ![] bcast_S_S8192x512 zero0) x) zero0
      reducesTo_S8192x512_S8192_d1 h_S_)

/-- A matrix with each row divided by that row's sum. -/
def rowNorm (x : Arr S8192x512) : Arr S8192x512 :=
  Host.divf x (broadcastInDim S8192x512 ![0, 1] bcast_S8192x1_S8192x512_0_1 (rowSumCol x))

/-- The soft assignment. -/
def softQ (z : Arr S8192x2048) (cn : Arr S512x2048) : Arr S8192x512 := rowNorm (kern z cn)

/-- The column sums of a matrix, repeated down the rows. -/
def colSumB (q : Arr S8192x512) : Arr S8192x512 :=
  broadcastInDim S8192x512 ![0, 1] bcast_S1x512_S8192x512_0_1
    (broadcastInDim S1x512 ![1] bcast_S512_S1x512_1
      (Host.reduceAdd q zero0 reducesTo_S8192x512_S512_d0 h_S_))

/-- The squared assignments over the cluster frequencies. -/
def sharp (q : Arr S8192x512) : Arr S8192x512 := Host.divf (mulf q q) (colSumB q)

/-- The target distribution of a soft assignment. -/
def target (q : Arr S8192x512) : Arr S8192x512 := rowNorm (sharp q)

/-- A matrix as one slab of a stack. -/
def slab1 (x : Arr S8192x512) : Arr S1x8192x512 :=
  broadcastInDim S1x8192x512 ![1, 2] bcast_S8192x512_S1x8192x512_1_2 x

/-- A soft assignment and its target distribution, stacked. -/
def stack2 (q : Arr S8192x512) : Arr S2x8192x512 :=
  concatenate S2x8192x512 0 [⟨S1x8192x512, slab1 q⟩, ⟨S1x8192x512, slab1 (target q)⟩]
    concatenates_S1x8192x512_S1x8192x512_S2x8192x512_d0

/-- The reference's result from its two arguments. -/
def refTerm (z : Arr S8192x2048) (cn : Arr S512x2048) : Arr S2x8192x512 := stack2 (softQ z cn)

end Cert.ReferenceIdeal.RefValue

end
-- ==== Proof.RefRun.lean ====
/-
  The reference's run: every weakly fair execution of the reference terminates with its result buffer at the composed
  term of the two argument arrays (the stages of the term are named in the module of the stages), and the argument
  arrays unchanged.
-/
import proofs.«136360_j17549236371952_2_alg».proof.Proof.RefOps
import proofs.«136360_j17549236371952_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

/-- What the line of operations leaves in the result buffer: the composed term of the two arguments' contents. -/
theorem after_out (V : Valuation τ sig (Elt Ideal)) :
    after (ops (F := Ideal)) V (main_v35 : DevRef τ sig)
      = refTerm (V (main_arg0 : DevRef τ sig)) (V (main_arg1 : DevRef τ sig)) := by
  after_results_simp
  rfl

theorem after_arg0 (V : Valuation τ sig (Elt Ideal)) :
    after (ops (F := Ideal)) V (main_arg0 : DevRef τ sig) = V (main_arg0 : DevRef τ sig) := by
  after_results_simp

theorem after_arg1 (V : Valuation τ sig (Elt Ideal)) :
    after (ops (F := Ideal)) V (main_arg1 : DevRef τ sig) = V (main_arg1 : DevRef τ sig) := by
  after_results_simp

/-- From any memory with zero counters every weakly fair execution of the reference terminates with the result at
    the composed term of the arguments and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v35)
            = refTerm (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c main_v35).trans (after_out _),
      (h c main_arg0).trans (after_arg0 _),
      (h c main_arg1).trans (after_arg1 _)⟩)
    (run_main m ρ)

end Cert.ReferenceIdeal.RefValue

end
-- ==== Proof.LibTransDot.lean ====
/-
  A PRODUCT WITH THE WEIGHT'S SECOND AXIS CONTRACTED (x · Wᵀ), AS A SUM.

  einsum 'de,ne->nd' and 'de,nke->nkd' contract the activations' last axis with the weight's LAST axis: the result
  at (n, d), or (n, k, d), is the sum over e of the activation's (n, e), or (n, k, e), times the weight's (d, e).
-/
import Idealize.ShloMosaic.PureOps.Ideal.Laws
import Idealize.ShloMosaic.Lib.ValueIdx

noncomputable section

open scoped BigOperators

namespace Cert.Lib

open Idealize.ShloMosaic Idealize.ShloMosaic.ValueIdx

section Rank2

variable {M K N : Nat} (d : DotDims ⟨2, ![M, K]⟩ ⟨2, ![N, K]⟩ ⟨2, ![M, N]⟩)

theorem t2_lhs_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

theorem t2_rhs_row (hln : d.lhsNonContracting = [0]) (hrn : d.rhsNonContracting = [0]) (hlb : d.lhsBatch = [])
    (hrb : d.rhsBatch = []) (j : (⟨2, ![M, N]⟩ : Shape).Idx) (k : d.contr.Idx) :
    (d.rhsIdx j k (0 : Fin 2)).val = (j (1 : Fin 2)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

theorem t2_contr_rank (hl : d.lhsContracting = [1]) : d.contr.rank = 1 := by rw [d.rank_contr, hl]; rfl

theorem t2_contr_size (hl : d.lhsContracting = [1]) :
    d.contr.size ⟨0, by rw [t2_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ at (p, n): the sum over k of x (p, k) · W (n, k). -/
theorem sum_contr_t2 {α : Type*} [AddCommMonoid α] (hl : d.lhsContracting = [1]) (hr : d.rhsContracting = [1])
    (hln : d.lhsNonContracting = [0]) (hrn : d.rhsNonContracting = [0]) (hlb : d.lhsBatch = []) (hrb : d.rhsBatch = [])
    (f : (⟨2, ![M, K]⟩ : Shape).Idx → (⟨2, ![N, K]⟩ : Shape).Idx → α) (p : Fin M) (n : Fin N) :
    ∑ k : d.contr.Idx, f (d.lhsIdx (ix2 p n) k) (d.rhsIdx (ix2 p n) k) = ∑ k : Fin K, f (ix2 p k) (ix2 n k) := by
  have hrk := t2_contr_rank d hl
  have hs := t2_contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact t2_lhs_row d hln hlb _ _
    | ⟨1, _⟩ => exact (d.lhsIdx_val_of_single hl _ _).trans (contrEquiv1_symm_val d K hrk hs k)
  have e2 : d.rhsIdx (ix2 p n) ((contrEquiv1 d K hrk hs).symm k) = ix2 n k := by
    funext a; apply Fin.ext
    match a with
    | ⟨0, _⟩ => exact t2_rhs_row d hln hrn hlb hrb _ _
    | ⟨1, _⟩ => exact (d.rhsIdx_val_of_single hr _ _).trans (contrEquiv1_symm_val d K hrk hs k)
  rw [e1, e2]

theorem dotGeneral_t2_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    Host.dotGeneral d prec a b (ix2 r q) = ∑ p : Fin K, a (ix2 r p) * b (ix2 q p) :=
  (Ideal.dotGeneral_apply d prec .single a b (ix2 r q)).trans
    (sum_contr_t2 d hl hr hln hrn hlb hrb (fun i j => a i * b j) r q)

end Rank2

section Rank3

variable {A B K N : Nat} (d : DotDims ⟨3, ![A, B, K]⟩ ⟨2, ![N, K]⟩ ⟨3, ![A, B, N]⟩)

theorem t3_lhs_0 (hln : d.lhsNonContracting = [0, 1]) (hlb : d.lhsBatch = [])
    (j : (⟨3, ![A, B, N]⟩ : Shape).Idx) (k : d.contr.Idx) : (d.lhsIdx j k (0 : Fin 3)).val = (j (0 : Fin 3)).val := by
  have hb : (0 : Fin 3) ∉ d.lhsBatch := by rw [hlb]; exact List.not_mem_nil
  have hn : (0 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_lhs_1 (hln : d.lhsNonContracting = [0, 1]) (hlb : d.lhsBatch = [])
    (j : (⟨3, ![A, B, N]⟩ : Shape).Idx) (k : d.contr.Idx) : (d.lhsIdx j k (1 : Fin 3)).val = (j (1 : Fin 3)).val := by
  have hb : (1 : Fin 3) ∉ d.lhsBatch := by rw [hlb]; exact List.not_mem_nil
  have hn : (1 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_rhs_row (hln : d.lhsNonContracting = [0, 1]) (hrn : d.rhsNonContracting = [0]) (hlb : d.lhsBatch = [])
    (hrb : d.rhsBatch = []) (j : (⟨3, ![A, B, N]⟩ : Shape).Idx) (k : d.contr.Idx) :
    (d.rhsIdx j k (0 : Fin 2)).val = (j (2 : Fin 3)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln, hrn]; rfl)

theorem t3_contr_rank (hl : d.lhsContracting = [2]) : d.contr.rank = 1 := by rw [d.rank_contr, hl]; rfl

theorem t3_contr_size (hl : d.lhsContracting = [2]) :
    d.contr.size ⟨0, by rw [t3_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ over a slab at (a, b, n): the sum over k of x (a, b, k) · W (n, k). -/
theorem sum_contr_t3 {α : Type*} [AddCommMonoid α] (hl : d.lhsContracting = [2]) (hr : d.rhsContracting = [1])
    (hln : d.lhsNonContracting = [0, 1]) (hrn : d.rhsNonContracting = [0]) (hlb : d.lhsBatch = []) (hrb : d.rhsBatch = [])
    (f : (⟨3, ![A, B, K]⟩ : Shape).Idx → (⟨2, ![N, K]⟩ : Shape).Idx → α) (a : Fin A) (b : Fin B) (n : Fin N) :
    ∑ k : d.contr.Idx, f (d.lhsIdx (ix3 a b n) k) (d.rhsIdx (ix3 a b n) k) = ∑ k : Fin K, f (ix3 a b k) (ix2 n k) := by
  have hrk := t3_contr_rank d hl
  have hs := t3_contr_size d hl
  rw [← Equiv.sum_comp (contrEquiv1 d K hrk hs).symm]
  refine Finset.sum_congr rfl fun k _ => ?_
  have e1 : d.lhsIdx (ix3 a b n) ((contrEquiv1 d K hrk hs).symm k) = ix3 a b k := by
    funext c; apply Fin.ext
    match c with
    | ⟨0, _⟩ => exact t3_lhs_0 d hln hlb _ _
    | ⟨1, _⟩ => exact t3_lhs_1 d hln hlb _ _
    | ⟨2, _⟩ => exact (d.lhsIdx_val_of_single hl _ _).trans (contrEquiv1_symm_val d K hrk hs k)
  have e2 : d.rhsIdx (ix3 a b n) ((contrEquiv1 d K hrk hs).symm k) = ix2 n k := by
    funext c; apply Fin.ext
    match c with
    | ⟨0, _⟩ => exact t3_rhs_row d hln hrn hlb hrb _ _
    | ⟨1, _⟩ => exact (d.rhsIdx_val_of_single hr _ _).trans (contrEquiv1_symm_val d K hrk hs k)
  rw [e1, e2]

theorem dotGeneral_t3_at (hl : d.lhsContracting = [2]) (hr : d.rhsContracting = [1])
    (hln : d.lhsNonContracting = [0, 1]) (hrn : d.rhsNonContracting = [0]) (hlb : d.lhsBatch = []) (hrb : d.rhsBatch = [])
    {φ₁ φ₂ : FTy} (prec : Option ContractPrecision) (x : FVec Ideal ⟨3, ![A, B, K]⟩ φ₁) (w : FVec Ideal ⟨2, ![N, K]⟩ φ₂)
    (a : Fin A) (b : Fin B) (q : Fin N) :
    Host.dotGeneral d prec x w (ix3 a b q) = ∑ p : Fin K, x (ix3 a b p) * w (ix2 q p) :=
  (Ideal.dotGeneral_apply d prec .single x w (ix3 a b q)).trans
    (sum_contr_t3 d hl hr hln hrn hlb hrb (fun i j => x i * w j) a b q)

end Rank3

end Cert.Lib

end
-- ==== Proof.RefRead.lean ====
/-
  The reference's term is the specification, index by index.

  Each stage of the term is read at an entry. The squared norms and the cross products are the plain sums; the clamp's
  zero and the sums' starting values are the number zero; the kernel written as a power is the quotient; the guard of
  the row sum that ignores undefined entries never fires on an extended real, so that row sum is the plain one; the
  column sums and the two normalisations are then the specification's, and the stack's two slabs are the soft
  assignment and the target distribution.
-/
import proofs.«136360_j17549236371952_2_alg».proof.Proof.RefTerm
import proofs.«136360_j17549236371952_2_alg».proof.Proof.RefLemmas
import proofs.«136360_j17549236371952_2_alg».proof.Proof.Spec
import proofs.«136360_j17549236371952_2_alg».proof.Proof.LibTransDot
import proofs.«136360_j17549236371952_2_alg».proof.Proof.LibRowReads
import proofs.«136360_j17549236371952_2_alg».proof.Proof.LibHostRead

noncomputable section

open scoped BigOperators

namespace Cert.ReferenceIdeal.RefValue

open Cert.ReferenceIdeal Cert.ReferenceIdeal.Gen Idealize.ShloMosaic Idealize.ShloMosaic.ValueIdx Cert.Lib

/-- A constant spread over the matrix reads the constant's number everywhere. -/
theorem splat_at (w : BitVec 32) (j : S8192x512.Idx) : splat w j = Ideal.ofBits .f32 w := by
  unfold splat; exact bcast_const_apply (φ := .f32) _ w j

/-- The scalar zero is the number zero. -/
theorem zero0_at : zero0 ix0 = 0 := Ideal.ofBits_zero_f32

theorem zsqB_at (z : Arr S8192x2048) (b : Fin 8192) (k : Fin 512) :
    zsqB z (ix2 b k) = ∑ h : Fin 2048, z (ix2 b h) * z (ix2 b h) := by
  unfold zsqB
  rw [colSpread_apply ![0] rfl bcast_S8192_S8192x1_0 ![0, 1] rfl rfl bcast_S8192x1_S8192x512_0_1,
    rowSum_apply _ _ reducesTo_S8192x2048_S8192_d1 (by decide) h_S_ b, zero0_at, zero_add]
  rfl

theorem csqB_at (cn : Arr S512x2048) (b : Fin 8192) (k : Fin 512) :
    csqB cn (ix2 b k) = ∑ h : Fin 2048, cn (ix2 k h) * cn (ix2 k h) := by
  unfold csqB
  rw [bcastInDim_vecRows_apply bcast_S512_S1x512_1 bcast_S1x512_S8192x512_0_1,
    rowSum_apply _ _ reducesTo_S512x2048_S512_d1 (by decide) h_S_ k, zero0_at, zero_add]
  rfl

theorem cross_at (z : Arr S8192x2048) (cn : Arr S512x2048) (b : Fin 8192) (k : Fin 512) :
    cross z cn (ix2 b k) = ∑ h : Fin 2048, z (ix2 b h) * cn (ix2 k h) :=
  dotGeneral_t2_at dot_S8192x2048_S512x2048_S8192x512_1_1_0_0_n_n rfl rfl rfl rfl rfl rfl none z cn b k

theorem dist2_at (z : Cert.Spec.ZArr) (cn : Cert.Spec.CArr) (b : Fin 8192) (k : Fin 512) :
    dist2 z cn (ix2 b k) = Cert.Spec.d2 z cn b k := by
  unfold dist2 Cert.Spec.d2
  rw [maximumf_apply, subf_apply, addf_apply, mulf_apply, zsqB_at, csqB_at, cross_at, splat_at, splat_at,
    Ideal.ofBits_zero_f32]

theorem kern_at (z : Cert.Spec.ZArr) (cn : Cert.Spec.CArr) (b : Fin 8192) (k : Fin 512) :
    kern z cn (ix2 b k) = Cert.Spec.qraw z cn b k := by
  have e : kern z cn (ix2 b k)
      = Ideal.pow (splat 0x3F800000#32 (ix2 b k)
          + Ideal.div (Ideal.sqrt (dist2 z cn (ix2 b k))) (splat 0x3F800000#32 (ix2 b k)))
          (splat 0xBF800000#32 (ix2 b k)) := rfl
  rw [e, splat_at, splat_at, dist2_at, ofBits_one, ofBits_minus_one]
  unfold Cert.Spec.qraw
  rw [ofBits_one]
  unfold Cert.Spec.d2
  exact kern_scalar _

/-- The row sum that ignores undefined entries is the plain row sum. -/
theorem rowSumCol_at (x : Arr S8192x512) (b : Fin 8192) (u : Fin 1) :
    rowSumCol x (ix2 b u) = ∑ k : Fin 512, x (ix2 b k) := by
  unfold rowSumCol
  rw [col_apply ![0] rfl bcast_S8192_S8192x1_0,
    rowSum_apply _ _ reducesTo_S8192x512_S8192_d1 (by decide) h_S_ b, zero0_at, zero_add]
  exact Finset.sum_congr rfl fun k _ => select_une_self x _ (ix2 b k)

theorem rowNorm_at (x : Arr S8192x512) (b : Fin 8192) (k : Fin 512) :
    rowNorm x (ix2 b k) = Ideal.div (x (ix2 b k)) (∑ k' : Fin 512, x (ix2 b k')) := by
  unfold rowNorm
  rw [hostDivf_apply, spread_apply ![0, 1] rfl rfl bcast_S8192x1_S8192x512_0_1, rowSumCol_at]

theorem softQ_at (z : Cert.Spec.ZArr) (cn : Cert.Spec.CArr) (b : Fin 8192) (k : Fin 512) :
    softQ z cn (ix2 b k) = Cert.Spec.Q z cn b k := by
  unfold softQ Cert.Spec.Q
  rw [rowNorm_at, kern_at]
  exact congrArg _ (Finset.sum_congr rfl fun k' _ => kern_at z cn b k')

theorem colSumB_at (q : Arr S8192x512) (b : Fin 8192) (k : Fin 512) :
    colSumB q (ix2 b k) = ∑ b' : Fin 8192, q (ix2 b' k) := by
  unfold colSumB
  rw [bcastInDim_vecRows_apply bcast_S512_S1x512_1 bcast_S1x512_S8192x512_0_1,
    colSum_apply _ _ reducesTo_S8192x512_S512_d0 (by decide) h_S_ k, zero0_at, zero_add]

theorem sharp_at (q : Arr S8192x512) (b : Fin 8192) (k : Fin 512) :
    sharp q (ix2 b k) = Ideal.div (q (ix2 b k) * q (ix2 b k)) (∑ b' : Fin 8192, q (ix2 b' k)) := by
  unfold sharp
  rw [hostDivf_apply, mulf_apply, colSumB_at]

theorem sharp_softQ_at (z : Cert.Spec.ZArr) (cn : Cert.Spec.CArr) (b : Fin 8192) (k : Fin 512) :
    sharp (softQ z cn) (ix2 b k) = Cert.Spec.praw z cn b k := by
  unfold Cert.Spec.praw Cert.Spec.col
  rw [sharp_at, softQ_at]
  exact congrArg _ (Finset.sum_congr rfl fun b' _ => softQ_at z cn b' k)

theorem target_softQ_at (z : Cert.Spec.ZArr) (cn : Cert.Spec.CArr) (b : Fin 8192) (k : Fin 512) :
    target (softQ z cn) (ix2 b k) = Cert.Spec.Pm z cn b k := by
  unfold target Cert.Spec.Pm
  rw [rowNorm_at, sharp_softQ_at]
  exact congrArg _ (Finset.sum_congr rfl fun k' _ => sharp_softQ_at z cn b k')

/-- The reference's term is the specification's stack of the soft assignment and the target distribution. -/
theorem refTerm_eq (z : Cert.Spec.ZArr) (cn : Cert.Spec.CArr) : refTerm z cn = Cert.Spec.G z cn := by
  funext j
  obtain ⟨s, b, k, rfl⟩ : ∃ (s : Fin 2) (b : Fin 8192) (k : Fin 512), j = ix3 s b k := ⟨j 0, j 1, j 2, eq_ix3 j⟩
  rw [Cert.Spec.G_ix3]
  unfold refTerm stack2 slab1
  match s with
  | ⟨0, _⟩ =>
    rw [if_pos rfl]
    exact (stack_fst_apply _ _ _ b k).trans ((slab_apply _ _ 0 b k).trans (softQ_at z cn b k))
  | ⟨1, _⟩ =>
    rw [if_neg Nat.one_ne_zero]
    exact (stack_snd_apply _ _ _ b k).trans ((slab_apply _ _ 0 b k).trans (target_softQ_at z cn b k))

end Cert.ReferenceIdeal.RefValue

end
-- ==== Proof.lean ====
/-
  Cluster soft assignment and target distribution: a two-kernel Pallas program against its jnp reference, equal on the
  extended reals.

  For a batch z of 8192 points and 512 centroids in dimension 2048 both programs compute the clamped squared distances
  d2 = max (‖z_b‖² + ‖c_k‖² − 2⟨z_b, c_k⟩) 0, the Student-t kernel 1 / (1 + √d2) at one degree of freedom, the soft
  assignment Q (its rows normalised), the cluster frequencies (Q's column sums), and the target distribution P (Q²
  over the frequencies, rows normalised); the result is Q and P stacked (Proof/Spec.lean).

  The kernel program forms ‖c_k‖² and the transposed centroids on the host; its first kernel computes Q tile by tile
  (four tiles of 2048 rows, two per core) and accumulates each core's column sums in row 0 of an 8-row slab per core;
  its second kernel adds the 16 slab rows to get the frequencies and forms P block by block. The reference computes
  the same with whole-array operations, writes the kernel as a power with exponent −1 of 1 + distance/1, and guards its
  row sums against NaN — a guard that never fires on the extended reals. What joins the two sides: the contraction
  sums are the same sums; a sum over 8192 rows is the sum of its four tiles' sums, and the slab's other rows are
  zero (commutativity and associativity of addition alone, so no finiteness of the inputs is used); x^(−1) is 1/x on
  the values a square root of a clamped number takes, including +∞.

  The three frame claims: the two kernel programs' frames are the generated ones; the reference's is its run with the
  result dropped. The ideal pass rewrote nothing, so the idealization claim is trivial.
-/
import proofs.«136360_j17549236371952_2_alg».proof.Defs
import proofs.«136360_j17549236371952_2_alg».proof.Proof.Gen.Kernel
import proofs.«136360_j17549236371952_2_alg».proof.Proof.Gen.Kernel.Frame
import proofs.«136360_j17549236371952_2_alg».proof.Proof.Gen.KernelIdeal
import proofs.«136360_j17549236371952_2_alg».proof.Proof.Gen.KernelIdeal.Frame
import proofs.«136360_j17549236371952_2_alg».proof.Proof.Gen.ReferenceIdeal
import proofs.«136360_j17549236371952_2_alg».proof.Proof.Gen.Pre_finite_inputs
import proofs.«136360_j17549236371952_2_alg».proof.Proof.KValue
import proofs.«136360_j17549236371952_2_alg».proof.Proof.RefRun
import proofs.«136360_j17549236371952_2_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end with the specification of the arguments in their result arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  exact Cert.ReferenceIdeal.RefValue.refTerm_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
